-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_arg2)) (v1 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_arg2) = v0 c
          ∧ r.2.mem ((c.tc : Thread Cert.KernelIdeal.nD Cert.KernelIdeal.τ).loc Cert.KernelIdeal.main_v17) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg2) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x2 : Shape := ⟨3, ![8, 4096, 2]⟩
abbrev S2 : Shape := ⟨1, ![2]⟩
abbrev S_ : Shape := ⟨0, ![]⟩

class Facts : Prop where
  bcast_S_S8x4096x2 : S_.BroadcastsInDim S8x4096x2 (![] : Fin 0 → Fin S8x4096x2.rank)
  reducesTo_S8x4096x2_S_d0_1_2 : S8x4096x2.ReducesTo [0, 1, 2] S_
  h_S_ : 0 < S_.numel
  bcast_S_S2 : S_.BroadcastsInDim S2 (![] : Fin 0 → Fin S2.rank)
  reducesTo_S2_S_d0 : S2.ReducesTo [0] S_

variable [Facts]

def fn_part1 {F : FTy → Type} [FloatOps F] (main_arg4 : FVec F S2 .f32) (main_v13 : IVec S_ 1) (main_v16 : IVec S8x4096x2 1) : IVec S_ 1 :=
  let main_c_5 : IVec S_ 1 := constantI S_ 1 1#1
  let main_v17 : IVec S_ 1 := (fun x v => Host.reduce IntOp.andi x v reducesTo_S8x4096x2_S_d0_1_2 h_S_) main_v16 main_c_5
  let main_v18 : IVec S_ 1 := andi main_v13 main_v17
  let main_v19 : FVec F S2 .f32 := Host.absf main_arg4
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  main_v23

def fn {F : FTy → Type} [FloatOps F] (main_arg0 : FVec F S8x4096x2 .f32) (main_arg1 : FVec F S8x4096x2 .f32) (main_arg2 : FVec F S8x4096x2 .f32) (main_arg3 : FVec F S8x4096x2 .f32) (main_arg4 : FVec F S2 .f32) : IVec S_ 1 :=
  let main_v0 : FVec F S8x4096x2 .f32 := Host.absf main_arg0
  let main_cst : FVec F S_ .f32 := constant S_ .f32 0x7F800000#32
  let main_v1 : FVec F S8x4096x2 .f32 := broadcastInDim S8x4096x2 ![] bcast_S_S8x4096x2 main_cst
  let main_v2 : IVec S8x4096x2 1 := cmpf .olt main_v0 main_v1
  let main_c : IVec S_ 1 := constantI S_ 1 1#1
  let main_v3 : IVec S_ 1 := (fun x v => Host.reduce IntOp.andi x v reducesTo_S8x4096x2_S_d0_1_2 h_S_) main_v2 main_c
  let main_v4 : FVec F S8x4096x2 .f32 := Host.absf main_arg1
  let main_cst_0 : FVec F S_ .f32 := constant S_ .f32 0x7F800000#32
  let main_v5 : FVec F S8x4096x2 .f32 := broadcastInDim S8x4096x2 ![] bcast_S_S8x4096x2 main_cst_0
  let main_v6 : IVec S8x4096x2 1 := cmpf .olt main_v4 main_v5
  let main_c_1 : IVec S_ 1 := constantI S_ 1 1#1
  let main_v7 : IVec S_ 1 := (fun x v => Host.reduce IntOp.andi x v reducesTo_S8x4096x2_S_d0_1_2 h_S_) main_v6 main_c_1
  let main_v8 : IVec S_ 1 := andi main_v3 main_v7
  let main_v9 : FVec F S8x4096x2 .f32 := Host.absf main_arg2
  let main_cst_2 : FVec F S_ .f32 := constant S_ .f32 0x7F800000#32
  let main_v10 : FVec F S8x4096x2 .f32 := broadcastInDim S8x4096x2 ![] bcast_S_S8x4096x2 main_cst_2
  let main_v11 : IVec S8x4096x2 1 := cmpf .olt main_v9 main_v10
  let main_c_3 : IVec S_ 1 := constantI S_ 1 1#1
  let main_v12 : IVec S_ 1 := (fun x v => Host.reduce IntOp.andi x v reducesTo_S8x4096x2_S_d0_1_2 h_S_) main_v11 main_c_3
  let main_v13 : IVec S_ 1 := andi main_v8 main_v12
  let main_v14 : FVec F S8x4096x2 .f32 := Host.absf main_arg3
  let main_cst_4 : FVec F S_ .f32 := constant S_ .f32 0x7F800000#32
  let main_v15 : FVec F S8x4096x2 .f32 := broadcastInDim S8x4096x2 ![] bcast_S_S8x4096x2 main_cst_4
  let main_v16 : IVec S8x4096x2 1 := cmpf .olt main_v14 main_v15
  fn_part1 (F := F) main_arg4 main_v13 main_v16
-- ==== Kernel.lean ====
abbrev S8x4096x2 : Shape := ⟨3, ![8, 4096, 2]⟩
abbrev S2 : Shape := ⟨1, ![2]⟩
abbrev S_ : Shape := ⟨0, ![]⟩
abbrev S1x1x2 : Shape := ⟨3, ![1, 1, 2]⟩
abbrev S8x4096 : Shape := ⟨2, ![8, 4096]⟩
abbrev S8x4096x1 : Shape := ⟨3, ![8, 4096, 1]⟩
abbrev S8x1x4096 : Shape := ⟨3, ![8, 1, 4096]⟩
abbrev S8x4096x4 : Shape := ⟨3, ![8, 4096, 4]⟩
abbrev S1x512x2 : Shape := ⟨3, ![1, 512, 2]⟩
abbrev S1x512x1 : Shape := ⟨3, ![1, 512, 1]⟩
abbrev S1x4096x2 : Shape := ⟨3, ![1, 4096, 2]⟩
abbrev S1x1x4096 : Shape := ⟨3, ![1, 1, 4096]⟩
abbrev S1x512x4 : Shape := ⟨3, ![1, 512, 4]⟩
abbrev S512x2 : Shape := ⟨2, ![512, 2]⟩
abbrev S512x1 : Shape := ⟨2, ![512, 1]⟩
abbrev S4096x2 : Shape := ⟨2, ![4096, 2]⟩
abbrev S1x4096 : Shape := ⟨2, ![1, 4096]⟩
abbrev S512x4096 : Shape := ⟨2, ![512, 4096]⟩
abbrev S512x4 : Shape := ⟨2, ![512, 4]⟩

abbrev nBuf : Space → Nat
  | .hbm => 40
  | .vmem => 14
  | .smem => 0
  | _ => 0

abbrev bufTy : (tb : Table) → Fin (tcTables nBuf tb) → BufTy
  | .hbm, ⟨0, _⟩ => ⟨S8x4096x2, .f32⟩
  | .hbm, ⟨1, _⟩ => ⟨S8x4096x2, .f32⟩
  | .hbm, ⟨2, _⟩ => ⟨S8x4096x2, .f32⟩
  | .hbm, ⟨3, _⟩ => ⟨S8x4096x2, .f32⟩
  | .hbm, ⟨4, _⟩ => ⟨S2, .f32⟩
  | .hbm, ⟨5, _⟩ => ⟨S_, .f32⟩
  | .hbm, ⟨6, _⟩ => ⟨S2, .f32⟩
  | .hbm, ⟨7, _⟩ => ⟨S2, .f32⟩
  | .hbm, ⟨8, _⟩ => ⟨S2, .f32⟩
  | .hbm, ⟨9, _⟩ => ⟨S2, .f32⟩
  | .hbm, ⟨10, _⟩ => ⟨S2, .i1⟩
  | .hbm, ⟨11, _⟩ => ⟨S2, .f32⟩
  | .hbm, ⟨12, _⟩ => ⟨S2, .f32⟩
  | .hbm, ⟨13, _⟩ => ⟨S2, .f32⟩
  | .hbm, ⟨14, _⟩ => ⟨S2, .f32⟩
  | .hbm, ⟨15, _⟩ => ⟨S2, .f32⟩
  | .hbm, ⟨16, _⟩ => ⟨S2, .f32⟩
  | .hbm, ⟨17, _⟩ => ⟨S2, .f32⟩
  | .hbm, ⟨18, _⟩ => ⟨S2, .f32⟩
  | .hbm, ⟨19, _⟩ => ⟨S_, .f32⟩
  | .hbm, ⟨20, _⟩ => ⟨S2, .f32⟩
  | .hbm, ⟨21, _⟩ => ⟨S2, .f32⟩
  | .hbm, ⟨22, _⟩ => ⟨S_, .f32⟩
  | .hbm, ⟨23, _⟩ => ⟨S2, .f32⟩
  | .hbm, ⟨24, _⟩ => ⟨S2, .f32⟩
  | .hbm, ⟨25, _⟩ => ⟨S1x1x2, .f32⟩
  | .hbm, ⟨26, _⟩ => ⟨S8x4096x2, .f32⟩
  | .hbm, ⟨27, _⟩ => ⟨S8x4096x2, .f32⟩
  | .hbm, ⟨28, _⟩ => ⟨S1x1x2, .f32⟩
  | .hbm, ⟨29, _⟩ => ⟨S8x4096x2, .f32⟩
  | .hbm, ⟨30, _⟩ => ⟨S8x4096x2, .f32⟩
  | .hbm, ⟨31, _⟩ => ⟨S8x4096x2, .f32⟩
  | .hbm, ⟨32, _⟩ => ⟨S_, .f32⟩
  | .hbm, ⟨33, _⟩ => ⟨S8x4096, .f32⟩
  | .hbm, ⟨34, _⟩ => ⟨S8x4096x1, .f32⟩
  | .hbm, ⟨35, _⟩ => ⟨S8x4096x2, .f32⟩
  | .hbm, ⟨36, _⟩ => ⟨S_, .f32⟩
  | .hbm, ⟨37, _⟩ => ⟨S8x4096, .f32⟩
  | .hbm, ⟨38, _⟩ => ⟨S8x1x4096, .f32⟩
  | .hbm, ⟨39, _⟩ => ⟨S8x4096x4, .f32⟩
  | .local _ .vmem, ⟨0, _⟩ => ⟨S1x512x2, .f32⟩
  | .local _ .vmem, ⟨1, _⟩ => ⟨S1x512x2, .f32⟩
  | .local _ .vmem, ⟨2, _⟩ => ⟨S1x512x1, .f32⟩
  | .local _ .vmem, ⟨3, _⟩ => ⟨S1x512x1, .f32⟩
  | .local _ .vmem, ⟨4, _⟩ => ⟨S1x4096x2, .f32⟩
  | .local _ .vmem, ⟨5, _⟩ => ⟨S1x4096x2, .f32⟩
  | .local _ .vmem, ⟨6, _⟩ => ⟨S1x1x4096, .f32⟩
  | .local _ .vmem, ⟨7, _⟩ => ⟨S1x1x4096, .f32⟩
  | .local _ .vmem, ⟨8, _⟩ => ⟨S1x4096x2, .f32⟩
  | .local _ .vmem, ⟨9, _⟩ => ⟨S1x4096x2, .f32⟩
  | .local _ .vmem, ⟨10, _⟩ => ⟨S1x512x2, .f32⟩
  | .local _ .vmem, ⟨11, _⟩ => ⟨S1x512x2, .f32⟩
  | .local _ .vmem, ⟨12, _⟩ => ⟨S1x512x4, .f32⟩
  | .local _ .vmem, ⟨13, _⟩ => ⟨S1x512x4, .f32⟩
  | _, _ => ⟨S8x4096x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_cst : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_v0 : Ref sig .tc := ⟨.hbm, 18, rfl⟩
abbrev main_cst : Ref sig .tc := ⟨.hbm, 19, rfl⟩
abbrev main_v1 : Ref sig .tc := ⟨.hbm, 20, rfl⟩
abbrev main_v2 : Ref sig .tc := ⟨.hbm, 21, rfl⟩
abbrev main_cst_0 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_cst_1 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_cst_2 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x4096x2 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512x2 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x4 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  bcast_S_S2 : S_.BroadcastsInDim S2 (![] : Fin 0 → Fin S2.rank)
  bcast_S2_S1x1x2_2 : S2.BroadcastsInDim S1x1x2 (![2] : Fin 1 → Fin S1x1x2.rank)
  bcast_S1x1x2_S8x4096x2_0_1_2 : S1x1x2.BroadcastsInDim S8x4096x2 (![0, 1, 2] : Fin 3 → Fin S8x4096x2.rank)
  reducesTo_S8x4096x2_S8x4096_d2 : S8x4096x2.ReducesTo [2] S8x4096
  h_S_ : 0 < S_.numel
  bcast_S8x4096_S8x4096x1_0_1 : S8x4096.BroadcastsInDim S8x4096x1 (![0, 1] : Fin 2 → Fin S8x4096x1.rank)
  bcast_S8x4096_S8x1x4096_0_2 : S8x4096.BroadcastsInDim S8x1x4096 (![0, 2] : Fin 2 → Fin S8x1x4096.rank)
  inb_S1x512x2_S1x512x2_0_0_0 : ∀ a, (![0, 0, 0] : Fin 3 → Nat) a + S1x512x2.size a ≤ S1x512x2.size a
  h_S1x512x2 : 0 < S1x512x2.numel
  shapeCasts_S1x512x2_S512x2 : S1x512x2.ShapeCasts S512x2
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  inb_S1x4096x2_S1x4096x2_0_0_0 : ∀ a, (![0, 0, 0] : Fin 3 → Nat) a + S1x4096x2.size a ≤ S1x4096x2.size a
  h_S1x4096x2 : 0 < S1x4096x2.numel
  shapeCasts_S1x4096x2_S4096x2 : S1x4096x2.ShapeCasts S4096x2
  inb_S1x1x4096_S1x1x4096_0_0_0 : ∀ a, (![0, 0, 0] : Fin 3 → Nat) a + S1x1x4096.size a ≤ S1x1x4096.size a
  h_S1x1x4096 : 0 < S1x1x4096.numel
  shapeCasts_S1x1x4096_S1x4096 : S1x1x4096.ShapeCasts S1x4096
  broadcasts_S512x1_S512x4096 : S512x1.Broadcasts S512x4096
  broadcasts_S1x4096_S512x4096 : S1x4096.Broadcasts S512x4096
  concatenates_S512x2_S512x2_S512x4_d1 : Shape.Concatenates [S512x2, S512x2] S512x4 1
  inb_S1x512x4_S1x512x4_0_0_0 : ∀ a, (![0, 0, 0] : Fin 3 → Nat) a + S1x512x4.size a ≤ S1x512x4.size a
  h_S1x512x4 : 0 < S1x512x4.numel
  shapeCasts_S1x512x4_S512x4 : S1x512x4.ShapeCasts S512x4
  shapeCasts_S512x4_S1x512x4 : S512x4.ShapeCasts S1x512x4
  dot_S512x2_S4096x2_S512x4096_1_1_0_0_n_n_wf : DotDims.WF S512x2 S4096x2 S512x4096 [1] [1] [0] [0] [] []
  dot_S512x4096_S4096x2_S512x2_1_0_0_1_n_n_wf : DotDims.WF S512x4096 S4096x2 S512x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x2.size a ≤ S8x4096x2.size a
  hwx0_0 : ∀ i : grid0.Coords, EltTy.bits .f32 = 32 ∨ (Rect.block (s := S8x4096x2) S1x512x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x1.size a ≤ S8x4096x1.size a
  hwx0_1 : ∀ i : grid0.Coords, EltTy.bits .f32 = 32 ∨ (Rect.block (s := S8x4096x1) S1x512x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4096x2.size a ≤ S8x4096x2.size a
  hwx0_2 : ∀ i : grid0.Coords, EltTy.bits .f32 = 32 ∨ (Rect.block (s := S8x4096x2) S1x4096x2.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x4096.size a ≤ S8x1x4096.size a
  hwx0_3 : ∀ i : grid0.Coords, EltTy.bits .f32 = 32 ∨ (Rect.block (s := S8x1x4096) S1x1x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x4096x2.size a ≤ S8x4096x2.size a
  hwx0_4 : ∀ i : grid0.Coords, EltTy.bits .f32 = 32 ∨ (Rect.block (s := S8x4096x2) S1x4096x2.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x2.size a ≤ S8x4096x2.size a
  hwx0_5 : ∀ i : grid0.Coords, EltTy.bits .f32 = 32 ∨ (Rect.block (s := S8x4096x2) S1x512x2.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512x4.size a ≤ S8x4096x4.size a
  hwx0_6 : ∀ i : grid0.Coords, EltTy.bits .f32 = 32 ∨ (Rect.block (s := S8x4096x4) S1x512x4.size (cc0_transform_6 i) (hinb0_6 i)).WholeWords (EltTy.packing .f32)

variable [Facts₀]

def dot_S512x2_S4096x2_S512x4096_1_1_0_0_n_n : DotDims S512x2 S4096x2 S512x4096 where
  lhsContracting := [1]
  rhsContracting := [1]
  lhsNonContracting := [0]
  rhsNonContracting := [0]
  lhsBatch := []
  rhsBatch := []
  wf := dot_S512x2_S4096x2_S512x4096_1_1_0_0_n_n_wf
def dot_S512x4096_S4096x2_S512x2_1_0_0_1_n_n : DotDims S512x4096 S4096x2 S512x2 where
  lhsContracting := [1]
  rhsContracting := [0]
  lhsNonContracting := [0]
  rhsNonContracting := [1]
  lhsBatch := []
  rhsBatch := []
  wf := dot_S512x4096_S4096x2_S512x2_1_0_0_1_n_n_wf

abbrev win0_0 : Pipeline.Window sig grid0 :=
  Pipeline.Window.ofSpec (Memref.whole main_v7) S1x512x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S1x512x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1x4096x2.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S1x1x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg1) S1x4096x2.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg3) S1x512x2.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v17) S1x512x4.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8x4096x2 : Shape := ⟨3, ![8, 4096, 2]⟩
abbrev S2 : Shape := ⟨1, ![2]⟩
abbrev S_ : Shape := ⟨0, ![]⟩
abbrev S8x4096x1x2 : Shape := ⟨4, ![8, 4096, 1, 2]⟩
abbrev S8x1x4096x2 : Shape := ⟨4, ![8, 1, 4096, 2]⟩
abbrev S8x4096x4096x2 : Shape := ⟨4, ![8, 4096, 4096, 2]⟩
abbrev S1x1x1x2 : Shape := ⟨4, ![1, 1, 1, 2]⟩
abbrev S8x4096x4096 : Shape := ⟨3, ![8, 4096, 4096]⟩
abbrev S8x4096x4 : Shape := ⟨3, ![8, 4096, 4]⟩

abbrev nBuf : Space → Nat
  | .hbm => 39
  | .vmem => 0
  | .smem => 0
  | _ => 0

abbrev bufTy : (tb : Table) → Fin (tcTables nBuf tb) → BufTy
  | .hbm, ⟨0, _⟩ => ⟨S8x4096x2, .f32⟩
  | .hbm, ⟨1, _⟩ => ⟨S8x4096x2, .f32⟩
  | .hbm, ⟨2, _⟩ => ⟨S8x4096x2, .f32⟩
  | .hbm, ⟨3, _⟩ => ⟨S8x4096x2, .f32⟩
  | .hbm, ⟨4, _⟩ => ⟨S2, .f32⟩
  | .hbm, ⟨5, _⟩ => ⟨S_, .f32⟩
  | .hbm, ⟨6, _⟩ => ⟨S2, .f32⟩
  | .hbm, ⟨7, _⟩ => ⟨S2, .f32⟩
  | .hbm, ⟨8, _⟩ => ⟨S2, .f32⟩
  | .hbm, ⟨9, _⟩ => ⟨S2, .f32⟩
  | .hbm, ⟨10, _⟩ => ⟨S2, .i1⟩
  | .hbm, ⟨11, _⟩ => ⟨S2, .f32⟩
  | .hbm, ⟨12, _⟩ => ⟨S2, .f32⟩
  | .hbm, ⟨13, _⟩ => ⟨S2, .f32⟩
  | .hbm, ⟨14, _⟩ => ⟨S2, .f32⟩
  | .hbm, ⟨15, _⟩ => ⟨S2, .f32⟩
  | .hbm, ⟨16, _⟩ => ⟨S2, .f32⟩
  | .hbm, ⟨17, _⟩ => ⟨S2, .f32⟩
  | .hbm, ⟨18, _⟩ => ⟨S2, .f32⟩
  | .hbm, ⟨19, _⟩ => ⟨S_, .f32⟩
  | .hbm, ⟨20, _⟩ => ⟨S2, .f32⟩
  | .hbm, ⟨21, _⟩ => ⟨S2, .f32⟩
  | .hbm, ⟨22, _⟩ => ⟨S8x4096x1x2, .f32⟩
  | .hbm, ⟨23, _⟩ => ⟨S8x1x4096x2, .f32⟩
  | .hbm, ⟨24, _⟩ => ⟨S8x4096x4096x2, .f32⟩
  | .hbm, ⟨25, _⟩ => ⟨S8x4096x4096x2, .f32⟩
  | .hbm, ⟨26, _⟩ => ⟨S8x4096x4096x2, .f32⟩
  | .hbm, ⟨27, _⟩ => ⟨S1x1x1x2, .f32⟩
  | .hbm, ⟨28, _⟩ => ⟨S8x4096x4096x2, .f32⟩
  | .hbm, ⟨29, _⟩ => ⟨S8x4096x4096x2, .f32⟩
  | .hbm, ⟨30, _⟩ => ⟨S8x4096x4096x2, .f32⟩
  | .hbm, ⟨31, _⟩ => ⟨S_, .f32⟩
  | .hbm, ⟨32, _⟩ => ⟨S8x4096x4096, .f32⟩
  | .hbm, ⟨33, _⟩ => ⟨S_, .f32⟩
  | .hbm, ⟨34, _⟩ => ⟨S8x4096x4096, .f32⟩
  | .hbm, ⟨35, _⟩ => ⟨S8x4096x4096, .f32⟩
  | .hbm, ⟨36, _⟩ => ⟨S8x4096x4096, .f32⟩
  | .hbm, ⟨37, _⟩ => ⟨S8x4096x2, .f32⟩
  | .hbm, ⟨38, _⟩ => ⟨S8x4096x4, .f32⟩
  | _, _ => ⟨S8x4096x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_cst : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_v0 : Ref sig .tc := ⟨.hbm, 18, rfl⟩
abbrev main_cst : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_cst_0 : Ref sig .tc := ⟨.hbm, 31, rfl⟩
abbrev main_v12 : Ref sig .tc := ⟨.hbm, 32, rfl⟩
abbrev main_cst_1 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩

abbrev nD : Nat := 1
abbrev τ : Topo := Topo.v7x

variable {F : FTy → Type} [FloatOps F]

class Facts₀ : Prop where
  bcast_S_S2 : S_.BroadcastsInDim S2 (![] : Fin 0 → Fin S2.rank)
  bcast_S8x4096x2_S8x4096x1x2_0_1_3 : S8x4096x2.BroadcastsInDim S8x4096x1x2 (![0, 1, 3] : Fin 3 → Fin S8x4096x1x2.rank)
  bcast_S8x4096x2_S8x1x4096x2_0_2_3 : S8x4096x2.BroadcastsInDim S8x1x4096x2 (![0, 2, 3] : Fin 3 → Fin S8x1x4096x2.rank)
  bcast_S8x4096x1x2_S8x4096x4096x2_0_1_2_3 : S8x4096x1x2.BroadcastsInDim S8x4096x4096x2 (![0, 1, 2, 3] : Fin 4 → Fin S8x4096x4096x2.rank)
  bcast_S8x1x4096x2_S8x4096x4096x2_0_1_2_3 : S8x1x4096x2.BroadcastsInDim S8x4096x4096x2 (![0, 1, 2, 3] : Fin 4 → Fin S8x4096x4096x2.rank)
  bcast_S2_S1x1x1x2_3 : S2.BroadcastsInDim S1x1x1x2 (![3] : Fin 1 → Fin S1x1x1x2.rank)
  bcast_S1x1x1x2_S8x4096x4096x2_0_1_2_3 : S1x1x1x2.BroadcastsInDim S8x4096x4096x2 (![0, 1, 2, 3] : Fin 4 → Fin S8x4096x4096x2.rank)
  reducesTo_S8x4096x4096x2_S8x4096x4096_d3 : S8x4096x4096x2.ReducesTo [3] S8x4096x4096
  h_S_ : 0 < S_.numel
  bcast_S_S8x4096x4096 : S_.BroadcastsInDim S8x4096x4096 (![] : Fin 0 → Fin S8x4096x4096.rank)
  concatenates_S8x4096x2_S8x4096x2_S8x4096x4_d2 : Shape.Concatenates [S8x4096x2, S8x4096x2] S8x4096x4 2
  dot_S8x4096x4096_S8x4096x2_S8x4096x2_2_1_1_2_0_0_wf : DotDims.WF S8x4096x4096 S8x4096x2 S8x4096x2 [2] [1] [1] [2] [0] [0]

variable [Facts₀]

def dot_S8x4096x4096_S8x4096x2_S8x4096x2_2_1_1_2_0_0 : DotDims S8x4096x4096 S8x4096x2 S8x4096x2 where
  lhsContracting := [2]
  rhsContracting := [1]
  lhsNonContracting := [1]
  rhsNonContracting := [2]
  lhsBatch := [0]
  rhsBatch := [0]
  wf := dot_S8x4096x4096_S8x4096x2_S8x4096x2_2_1_1_2_0_0_wf

class Facts : Prop extends Facts₀ where

variable [Facts]
-- ==== Proof.Finite.lean ====
/-
  The precondition "every float input is finite", read back as a statement about extended reals.

  The predicate tests each array entrywise by `|x| < +∞`, folds each array's answers with `and` from the
  constant 1, and joins the five results with `and`. Over the extended reals `|x|` is `max x (-x)`, the word
  `0x7F800000` denotes `⊤`, and `max x (-x) < ⊤` fails at `⊥` (where `-⊥ = ⊤`) and at `⊤`, and holds at every
  real. So the predicate being 1 says that every entry of every input is a real number.
-/
import proofs.«101467_j57397942944248_2_alg».proof.Pre_finite_inputs
import proofs.«101467_j57397942944248_2_alg».proof.Proof.Gen.Pre_finite_inputs
import Idealize.ShloMosaic.PureOps.Ideal
import Idealize.ShloMosaic.PureOps.Ideal.Laws
import Idealize.ShloMosaic.Lib.ValueIdx
import Idealize.ShloMosaic.Lib.ReduceAll

noncomputable section

namespace Cert.Rbf

open Idealize.ShloMosaic Idealize.ShloMosaic.ValueIdx

/-- The f32 word `0x7F800000` (sign 0, exponent all ones, fraction 0) denotes `+∞`. -/
theorem ofBits_posInf : Ideal.ofBits .f32 0x7F800000#32 = (⊤ : EReal) := by
  simp [Ideal.ofBits, Ideal.ieee]

/-- An extended real whose absolute value `max x (-x)` is strictly below `+∞` is a real:
    at `⊥` the maximum is `-⊥ = ⊤`, at `⊤` it is `⊤`, and `⊤ < ⊤` is false. -/
theorem real_of_abs_lt_inf (x : EReal)
    (h : Ideal.cmp .olt (max x (-x)) (Ideal.ofBits .f32 0x7F800000#32) = 1#1) : ∃ r : ℝ, x = (r : EReal) := by
  rw [ofBits_posInf] at h
  induction x using EReal.rec with
  | bot => simp [Ideal.cmp] at h
  | coe r => exact ⟨r, rfl⟩
  | top => simp [Ideal.cmp] at h

/-- The scalar shape has exactly one index. -/
instance subsingleton_scalarIdx : Subsingleton Cert.Pre_finite_inputs.S_.Idx :=
  ⟨fun a b => funext fun d => d.elim0⟩

/-- The test `|x| < +∞` required of all entries of an array of any shape: if the `and`-reduction over all axes of the entrywise
    test is 1, every entry of `x` is a real. The reduction being 1 forces each tested entry to be 1
    (a fold by `and` that ends at 1 met only 1s), and the entry's test is the scalar one above. -/
theorem all_real_of_reduce {s : Shape} {axes : List (Fin s.rank)} (x : FVec Ideal s .f32)
    (bc : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
          (cmpf .olt (Host.absf x)
            (broadcastInDim s ![] bc (constant (F := Ideal) Cert.Pre_finite_inputs.S_ .f32 0x7F800000#32)))
          (constantI Cert.Pre_finite_inputs.S_ 1 1#1) hr hu ix0 = 1#1) :
    ∀ i, ∃ r : ℝ, x i = (r : EReal) := by
  intro i
  have hi := Host.reduce_andi_all _ _ hr hu ix0 e i
  exact real_of_abs_lt_inf (x i) hi

/-- The precondition decoded: if the finiteness predicate of the five inputs is 1, every entry of each is a real. -/
theorem real_of_pre [Cert.Pre_finite_inputs.Facts]
    (x0 x1 x2 x3 : FVec Ideal Cert.Pre_finite_inputs.S8x4096x2 .f32) (x4 : FVec Ideal Cert.Pre_finite_inputs.S2 .f32)
    (h : Cert.Pre_finite_inputs.fn (F := Ideal) x0 x1 x2 x3 x4 = fun _ => 1#1) :
    (∀ i, ∃ r : ℝ, x0 i = (r : EReal)) ∧ (∀ i, ∃ r : ℝ, x1 i = (r : EReal)) ∧ (∀ i, ∃ r : ℝ, x2 i = (r : EReal))
      ∧ (∀ i, ∃ r : ℝ, x3 i = (r : EReal)) ∧ (∀ i, ∃ r : ℝ, x4 i = (r : EReal)) := by
  have h0 := congrFun h ix0
  dsimp only [Cert.Pre_finite_inputs.fn, Cert.Pre_finite_inputs.fn_part1, andi] at h0
  obtain ⟨h0123, h4⟩ := IntOp.andi_eq_one.1 h0
  obtain ⟨h012, h3⟩ := IntOp.andi_eq_one.1 h0123
  obtain ⟨h01, h2⟩ := IntOp.andi_eq_one.1 h012
  obtain ⟨h0', h1⟩ := IntOp.andi_eq_one.1 h01
  exact ⟨all_real_of_reduce x0 _ _ _ h0', all_real_of_reduce x1 _ _ _ h1, all_real_of_reduce x2 _ _ _ h2,
    all_real_of_reduce x3 _ _ _ h3, all_real_of_reduce x4 _ _ _ h4⟩

end Cert.Rbf

end
-- ==== Proof.Spec.lean ====
/-
  The mathematics of the certificate, with no program in sight.

  A batch `b` holds 4096 grid points `xon b i : ℝ²` with values `yon b i : ℝ²` and 4096 off-grid points
  `xoff b j : ℝ²` with values `yoff b j : ℝ²`. Each coordinate `d` has a lengthscale `l d`. The squared scaled
  distance of grid point `i` to off-grid point `j` is `∑ d, ((xon b i d - xoff b j d) / l d)²`, its weight is
  `exp (-½ · that)`, and the result at grid point `i` is the pair `yon b i` followed by the weighted sum
  `∑ j, weight i j · yoff b j` of the off-grid values: four numbers per grid point.

  The same distance can be spelt with every coordinate scaled first, `x · (1 / l d)`, as
  `|q|² + |k|² - 2 ⟨q, k⟩`: the square of a difference expanded. Over the reals, with `l d ≠ 0`, the two
  spellings are one number (`sq_expand`); on the extended reals the expansion needs every entry finite, because
  `∞ - ∞` has no meaning there, and a lengthscale that is not zero, because a quotient by zero is an infinity.
-/
import Idealize.ShloMosaic.PureOps.Ideal.Laws
import Idealize.ShloMosaic.Lib.ValueIdx
import Idealize.ShloMosaic.Lib.IdealHost

noncomputable section

namespace Cert.Rbf

open Idealize.ShloMosaic Idealize.ShloMosaic.ValueIdx

/-- Points and values: 8 batches of 4096 rows of 2 numbers. -/
abbrev Pts : Shape := ⟨3, ![8, 4096, 2]⟩
/-- One number per coordinate. -/
abbrev Par : Shape := ⟨1, ![2]⟩
/-- The result: 8 batches of 4096 rows of 4 numbers. -/
abbrev Out : Shape := ⟨3, ![8, 4096, 4]⟩

/-- The float words the two programs share, as extended reals: 0, 1, 2, -1/2 and the lengthscale's floor. -/
abbrev w0 : EReal := Ideal.ofBits .f32 0x00000000#32
abbrev w1 : EReal := Ideal.ofBits .f32 0x3F800000#32
abbrev w2 : EReal := Ideal.ofBits .f32 0x40000000#32
abbrev wNegHalf : EReal := Ideal.ofBits .f32 0xBF000000#32
abbrev wFloor : EReal := Ideal.ofBits .f32 0x3727C5AC#32

theorem w0_eq : w0 = ((0 : ℝ) : EReal) := by rw [w0, Ideal.ofBits_zero_f32]; exact EReal.coe_zero.symm
theorem w1_eq : w1 = ((1 : ℝ) : EReal) := by rw [w1, Ideal.ofBits_one_f32]; exact EReal.coe_one.symm
theorem w2_eq : w2 = ((2 : ℝ) : EReal) := by
  simp [w2, Ideal.ofBits, Ideal.ieee, -EReal.coe_mul]; norm_num

/-- The lengthscale of one coordinate from its parameter `p`: a small floor plus the softplus of `p`, the softplus
    written as `max p 0 + log (1 + exp (-|p - 0|))` behind a test `p - 0 ≠ p - 0` that no extended real passes. -/
def lsAt (p : EReal) : EReal :=
  wFloor + Scalar.select (Ideal.cmp .une (p - w0) (p - w0)) (p + w0)
    (max p w0 + Ideal.log1p (Ideal.exp (-(max (p - w0) (-(p - w0))))))

/-- The squared scaled distance of grid point `i` to off-grid point `j` in batch `b`: the sum over the two
    coordinates of the squared quotient of the difference by the lengthscale. -/
def sqDist (xon xoff : Pts.Idx → EReal) (l : Par.Idx → EReal) (b : Fin 8) (i j : Fin 4096) : EReal :=
  w0 + ∑ d : Fin 2, Ideal.div (xon (ix3 b i d) - xoff (ix3 b j d)) (l (ix1 d))
    * Ideal.div (xon (ix3 b i d) - xoff (ix3 b j d)) (l (ix1 d))

/-- The same distance with each coordinate scaled by the reciprocal lengthscale first and the square expanded:
    `|q|² + |k|² - 2 ⟨q, k⟩`. -/
def sqDistExpanded (xon xoff : Pts.Idx → EReal) (l : Par.Idx → EReal) (b : Fin 8) (i j : Fin 4096) : EReal :=
  ((w0 + ∑ d : Fin 2, (xon (ix3 b i d) * Ideal.div w1 (l (ix1 d))) * (xon (ix3 b i d) * Ideal.div w1 (l (ix1 d))))
    + (w0 + ∑ d : Fin 2, (xoff (ix3 b j d) * Ideal.div w1 (l (ix1 d))) * (xoff (ix3 b j d) * Ideal.div w1 (l (ix1 d)))))
  - w2 * ∑ d : Fin 2, (xon (ix3 b i d) * Ideal.div w1 (l (ix1 d))) * (xoff (ix3 b j d) * Ideal.div w1 (l (ix1 d)))

/-- The weighted sum of the off-grid values at grid point `i`, value coordinate `e`. -/
def gridded (xoff yoff xon : Pts.Idx → EReal) (l : Par.Idx → EReal) (b : Fin 8) (i : Fin 4096) (e : Fin 2) : EReal :=
  ∑ j : Fin 4096, Ideal.exp (wNegHalf * sqDist xon xoff l b i j) * yoff (ix3 b j e)

/-- The result at batch `b`, grid point `i`, column `e`: the grid point's own values in columns 0 and 1, the
    weighted sums in columns 2 and 3. -/
def Gat (xoff yoff xon yon : Pts.Idx → EReal) (l : Par.Idx → EReal) (b : Fin 8) (i : Fin 4096) (e : Fin 4) : EReal :=
  if h : e.val < 2 then yon (ix3 b i ⟨e.val, h⟩)
  else gridded xoff yoff xon l b i ⟨e.val - 2, by have := e.isLt; omega⟩

/-- The whole result array. -/
def G (xoff yoff xon yon : Pts.Idx → EReal) (l : Par.Idx → EReal) : Out.Idx → EReal :=
  fun o => Gat xoff yoff xon yon l (o 0) (o 1) (o 2)

/-- THE LAW: over real coordinates and lengthscales that are not zero, the expanded square is the square. -/
theorem sq_expand (a b l : Fin 2 → ℝ) (hl : ∀ d, l d ≠ 0) :
    ((w0 + ∑ d : Fin 2, ((a d : EReal) * Ideal.div w1 (l d)) * ((a d : EReal) * Ideal.div w1 (l d)))
      + (w0 + ∑ d : Fin 2, ((b d : EReal) * Ideal.div w1 (l d)) * ((b d : EReal) * Ideal.div w1 (l d))))
    - w2 * ∑ d : Fin 2, ((a d : EReal) * Ideal.div w1 (l d)) * ((b d : EReal) * Ideal.div w1 (l d))
    = w0 + ∑ d : Fin 2, Ideal.div ((a d : EReal) - (b d : EReal)) (l d) * Ideal.div ((a d : EReal) - (b d : EReal)) (l d) := by
  simp only [Fin.sum_univ_two, w0_eq, w1_eq, w2_eq, Ideal.div_coe (hl 0), Ideal.div_coe (hl 1)]
  simp only [← EReal.coe_mul, ← EReal.coe_add, ← EReal.coe_sub]
  congr 1
  ring

end Cert.Rbf

end
-- ==== Proof.LibConcat2.lean ====
/-
  A concatenation of TWO arrays along the last axis, read at an index: a column below the first piece's width
  comes from the first piece at that column, a column at or above it from the second piece at the column less that
  width. Stated at rank 3 (pieces `[n0, n1, m1]` and `[n0, n1, m2]`) and at rank 2 (pieces `[n0, m1]` and
  `[n0, m2]`), with every index written by its coordinates.
-/
import Idealize.ShloMosaic.Lib.Pipeline.Value
import Idealize.ShloMosaic.Lib.ValueIdx

namespace Cert.LibConcat2

open Idealize.ShloMosaic Idealize.ShloMosaic.ValueIdx

variable {α : Type}

/-- Rank 3, a column of the first piece. -/
theorem last3_left {n0 n1 m1 m2 m : ℕ} (x : (⟨3, ![n0, n1, m1]⟩ : Shape).Idx → α) (y : (⟨3, ![n0, n1, m2]⟩ : Shape).Idx → α)
    (h : Shape.Concatenates [(⟨3, ![n0, n1, m1]⟩ : Shape), ⟨3, ![n0, n1, m2]⟩] ⟨3, ![n0, n1, m]⟩ 2)
    (b : Fin n0) (i : Fin n1) (e : Fin m) (he : e.val < m1) :
    concatenate ⟨3, ![n0, n1, m]⟩ 2 [⟨⟨3, ![n0, n1, m1]⟩, x⟩, ⟨⟨3, ![n0, n1, m2]⟩, y⟩] h (ix3 b i e)
      = x (ix3 b i ⟨e.val, he⟩) :=
  concatenate_apply_piece (t := ⟨3, ![n0, n1, m]⟩) (2 : Fin 3) [⟨⟨3, ![n0, n1, m1]⟩, x⟩, ⟨⟨3, ![n0, n1, m2]⟩, y⟩] h (ix3 b i e) 0 Nat.zero_lt_two _ x rfl rfl 0 rfl (ix3 b i ⟨e.val, he⟩)
    (fun c hc => by
      match c with
      | ⟨0, _⟩ => rfl
      | ⟨1, _⟩ => rfl
      | ⟨2, _⟩ => exact absurd rfl hc)
    (Nat.zero_add _)

/-- Rank 3, a column of the second piece. -/
theorem last3_right {n0 n1 m1 m2 m : ℕ} (x : (⟨3, ![n0, n1, m1]⟩ : Shape).Idx → α) (y : (⟨3, ![n0, n1, m2]⟩ : Shape).Idx → α)
    (h : Shape.Concatenates [(⟨3, ![n0, n1, m1]⟩ : Shape), ⟨3, ![n0, n1, m2]⟩] ⟨3, ![n0, n1, m]⟩ 2)
    (b : Fin n0) (i : Fin n1) (e : Fin m) (he : m1 ≤ e.val) (he' : e.val - m1 < m2) :
    concatenate ⟨3, ![n0, n1, m]⟩ 2 [⟨⟨3, ![n0, n1, m1]⟩, x⟩, ⟨⟨3, ![n0, n1, m2]⟩, y⟩] h (ix3 b i e)
      = y (ix3 b i ⟨e.val - m1, he'⟩) :=
  concatenate_apply_piece (t := ⟨3, ![n0, n1, m]⟩) (2 : Fin 3) [⟨⟨3, ![n0, n1, m1]⟩, x⟩, ⟨⟨3, ![n0, n1, m2]⟩, y⟩] h (ix3 b i e) 1 Nat.one_lt_two _ y rfl rfl m1 (by simp) (ix3 b i ⟨e.val - m1, he'⟩)
    (fun c hc => by
      match c with
      | ⟨0, _⟩ => rfl
      | ⟨1, _⟩ => rfl
      | ⟨2, _⟩ => exact absurd rfl hc)
    (by show m1 + (e.val - m1) = e.val; omega)

/-- Rank 2, a column of the first piece. -/
theorem last2_left {n0 m1 m2 m : ℕ} (x : (⟨2, ![n0, m1]⟩ : Shape).Idx → α) (y : (⟨2, ![n0, m2]⟩ : Shape).Idx → α)
    (h : Shape.Concatenates [(⟨2, ![n0, m1]⟩ : Shape), ⟨2, ![n0, m2]⟩] ⟨2, ![n0, m]⟩ 1)
    (i : Fin n0) (e : Fin m) (he : e.val < m1) :
    concatenate ⟨2, ![n0, m]⟩ 1 [⟨⟨2, ![n0, m1]⟩, x⟩, ⟨⟨2, ![n0, m2]⟩, y⟩] h (ix2 i e)
      = x (ix2 i ⟨e.val, he⟩) :=
  concatenate_apply_piece (t := ⟨2, ![n0, m]⟩) (1 : Fin 2) [⟨⟨2, ![n0, m1]⟩, x⟩, ⟨⟨2, ![n0, m2]⟩, y⟩] h (ix2 i e) 0 Nat.zero_lt_two _ x rfl rfl 0 rfl (ix2 i ⟨e.val, he⟩)
    (fun c hc => by
      match c with
      | ⟨0, _⟩ => rfl
      | ⟨1, _⟩ => exact absurd rfl hc)
    (Nat.zero_add _)

/-- Rank 2, a column of the second piece. -/
theorem last2_right {n0 m1 m2 m : ℕ} (x : (⟨2, ![n0, m1]⟩ : Shape).Idx → α) (y : (⟨2, ![n0, m2]⟩ : Shape).Idx → α)
    (h : Shape.Concatenates [(⟨2, ![n0, m1]⟩ : Shape), ⟨2, ![n0, m2]⟩] ⟨2, ![n0, m]⟩ 1)
    (i : Fin n0) (e : Fin m) (he : m1 ≤ e.val) (he' : e.val - m1 < m2) :
    concatenate ⟨2, ![n0, m]⟩ 1 [⟨⟨2, ![n0, m1]⟩, x⟩, ⟨⟨2, ![n0, m2]⟩, y⟩] h (ix2 i e)
      = y (ix2 i ⟨e.val - m1, he'⟩) :=
  concatenate_apply_piece (t := ⟨2, ![n0, m]⟩) (1 : Fin 2) [⟨⟨2, ![n0, m1]⟩, x⟩, ⟨⟨2, ![n0, m2]⟩, y⟩] h (ix2 i e) 1 Nat.one_lt_two _ y rfl rfl m1 (by simp) (ix2 i ⟨e.val - m1, he'⟩)
    (fun c hc => by
      match c with
      | ⟨0, _⟩ => rfl
      | ⟨1, _⟩ => exact absurd rfl hc)
    (by show m1 + (e.val - m1) = e.val; omega)

end Cert.LibConcat2
-- ==== Proof.RefValue.lean ====
/-
  The reference computes `G`.

  Its result is the concatenation, along the last axis, of the grid points' own values and the weighted sums of
  the off-grid values. The weighted sum at grid point `i` is a contraction over the off-grid points `j` of the
  weights `exp (-½ · sqDist i j)` with the off-grid values, and `sqDist i j` is the sum over the two coordinates of
  the squared quotient `(xon i d - xoff j d) / l d`, the lengthscale `l d` the floor plus the softplus of the
  parameter. Each stage is read at an index from the stage before it; the only work is to say which index of an
  operand a broadcast or a contraction reads.
-/
import proofs.«101467_j57397942944248_2_alg».proof.Proof.Gen.ReferenceIdeal.Read
import proofs.«101467_j57397942944248_2_alg».proof.Proof.Spec
import proofs.«101467_j57397942944248_2_alg».proof.Proof.LibConcat2

noncomputable section

namespace Cert.Rbf.Ref

open Cert.ReferenceIdeal Cert.ReferenceIdeal.Read Idealize.ShloMosaic Idealize.ShloMosaic.ValueIdx Cert.Rbf

/-- The lengthscale vector the parameter gives, coordinate by coordinate. -/
def lsOf (x4 : Par.Idx → EReal) : Par.Idx → EReal := fun d => lsAt (x4 d)

/-- The reference's lengthscale stage at coordinate `d` is the floor plus the softplus of the parameter there. -/
theorem ls_apply (x4 : (⟨S2, .f32⟩ : BufTy).Contents (Elt Ideal)) (d : S2.Idx) :
    val_main_v2 (F := Ideal) x4 d = lsAt (x4 d) := by
  rfl

/-- The reference's reduced stage at `(b, i, j)` is the squared scaled distance of grid point `i` to off-grid
    point `j`: the broadcasts read `xon` at `(b, i, d)`, `xoff` at `(b, j, d)` and the lengthscale at `d`. -/
theorem sqDist_apply (x0 x2 : (⟨S8x4096x2, .f32⟩ : BufTy).Contents (Elt Ideal)) (x4 : (⟨S2, .f32⟩ : BufTy).Contents (Elt Ideal))
    (b : Fin 8) (i j : Fin 4096) :
    val_main_v12 (F := Ideal) x0 x2 x4 (ix3 b i j) = sqDist x2 x0 (lsOf x4) b i j := by
  rw [val_main_v12_apply]
  unfold sqDist
  refine congrArg (w0 + ·) (Finset.sum_congr rfl fun d _ => ?_)
  have e2 : idx_main_v3 (idx_main_v5 (idx_main_v12 (ix3 b i j) d)) = ix3 b i d :=
    funext fun a => Fin.ext (by match a with | ⟨0, _⟩ => rfl | ⟨1, _⟩ => rfl | ⟨2, _⟩ => rfl)
  have e0 : idx_main_v4 (idx_main_v6 (idx_main_v12 (ix3 b i j) d)) = ix3 b j d :=
    funext fun a => Fin.ext (by match a with | ⟨0, _⟩ => rfl | ⟨1, _⟩ => rfl | ⟨2, _⟩ => rfl)
  have e4 : idx_main_v8 (idx_main_v9 (idx_main_v12 (ix3 b i j) d)) = ix1 d :=
    funext fun a => Fin.ext (by match a with | ⟨0, _⟩ => rfl)
  rw [val_main_v11_apply, val_main_v10_apply, val_main_v7_apply, val_main_v5_apply, val_main_v3_apply,
    val_main_v6_apply, val_main_v4_apply, val_main_v9_apply, val_main_v8_apply, e2, e0, e4, ls_apply]
  rfl

/-- The weight of off-grid point `j` at grid point `i`. -/
theorem weight_apply (x0 x2 : (⟨S8x4096x2, .f32⟩ : BufTy).Contents (Elt Ideal)) (x4 : (⟨S2, .f32⟩ : BufTy).Contents (Elt Ideal))
    (b : Fin 8) (i j : Fin 4096) :
    val_main_v15 (F := Ideal) x0 x2 x4 (ix3 b i j) = Ideal.exp (wNegHalf * sqDist x2 x0 (lsOf x4) b i j) := by
  rw [val_main_v15_apply, val_main_v14_apply, val_main_v13_apply, val_main_cst_1_apply, sqDist_apply]
  rfl

/-- The contraction over the off-grid points: the weighted sum of their values. -/
theorem gridded_apply (x0 x1 x2 : (⟨S8x4096x2, .f32⟩ : BufTy).Contents (Elt Ideal)) (x4 : (⟨S2, .f32⟩ : BufTy).Contents (Elt Ideal))
    (b : Fin 8) (i : Fin 4096) (e : Fin 2) :
    val_main_v16 (F := Ideal) x0 x1 x2 x4 (ix3 b i e) = gridded x0 x1 x2 (lsOf x4) b i e := by
  rw [val_main_v16_apply]
  unfold gridded
  refine Finset.sum_congr rfl fun j _ => ?_
  have el : lidx_main_v16 (ix3 b i e) j = ix3 b i j :=
    funext fun a => Fin.ext (by match a with | ⟨0, _⟩ => rfl | ⟨1, _⟩ => rfl | ⟨2, _⟩ => rfl)
  have er : ridx_main_v16 (ix3 b i e) j = ix3 b j e :=
    funext fun a => Fin.ext (by match a with | ⟨0, _⟩ => rfl | ⟨1, _⟩ => rfl | ⟨2, _⟩ => rfl)
  rw [el, er, weight_apply]

/-- The reference's result array is `G` of its arguments. -/
theorem result_eq (x0 x1 x2 x3 : (⟨S8x4096x2, .f32⟩ : BufTy).Contents (Elt Ideal)) (x4 : (⟨S2, .f32⟩ : BufTy).Contents (Elt Ideal)) :
    val_main_v17 (F := Ideal) x0 x1 x2 x3 x4 = G x0 x1 x2 x3 (lsOf x4) := by
  funext o
  obtain ⟨b, i, e, rfl⟩ : ∃ (b : Fin 8) (i : Fin 4096) (e : Fin 4), o = ix3 b i e := ⟨o 0, o 1, o 2, eq_ix3 o⟩
  show _ = Gat x0 x1 x2 x3 (lsOf x4) b i e
  unfold val_main_v17 Gat
  by_cases h : e.val < 2
  · rw [dif_pos h]
    exact LibConcat2.last3_left _ _ _ b i e h
  · rw [dif_neg h]
    have he : 2 ≤ e.val := Nat.le_of_not_lt h
    have he' : e.val - 2 < 2 := by have := e.isLt; omega
    refine (LibConcat2.last3_right _ _ _ b i e he he').trans ?_
    exact gridded_apply x0 x1 x2 x4 b i ⟨e.val - 2, he'⟩

end Cert.Rbf.Ref

end
-- ==== Proof.KernelArrays.lean ====
/-
  The arrays the kernel's windows read, as the region finds them.

  Before the region the host computes, from the parameter, the reciprocal lengthscale `1 / l d` of each coordinate,
  scales both point sets by it (`x · (1 / l d)`), and sums the squares of each scaled point's two coordinates:
  its squared norm, kept as a column `[8, 4096, 1]` for the grid points and as a row `[8, 1, 4096]` for the off-grid
  points. Four of the region's six input windows read these computed arrays; the other two read the off-grid and
  grid values as launched. Each computed array is named here as a stage of the arguments and read at an index.
-/
import proofs.«101467_j57397942944248_2_alg».proof.Proof.Gen.KernelIdeal.Frame
import proofs.«101467_j57397942944248_2_alg».proof.Proof.Spec
import Idealize.ShloMosaic.Lib.StableHlo.Run
import Idealize.ShloMosaic.Lib.Pipeline.Value
import Idealize.ShloMosaic.Lib.ValueIdx
import Idealize.ShloMosaic.PureOps.Ideal.Laws

noncomputable section

namespace Cert.Rbf.Ker

open Cert.KernelIdeal Cert.KernelIdeal.Gen Idealize.ShloMosaic Idealize.ShloMosaic.TcCoe Idealize.SL.Sem
open Idealize.ShloMosaic.ValueIdx Cert.Rbf

/-! ## The stages -/

/-- The zero the softplus compares and adds with, one per coordinate. -/
abbrev zK : FVec Ideal S2 .f32 := broadcastInDim S2 ![] Facts₀.bcast_S_S2 (constant (F := Ideal) S_ .f32 0x00000000#32)

/-- The lengthscales: the floor plus the softplus of the parameter. -/
def lsK (x4 : FVec Ideal S2 .f32) : FVec Ideal S2 .f32 :=
  addf (broadcastInDim S2 ![] Facts₀.bcast_S_S2 (constant (F := Ideal) S_ .f32 0x3727C5AC#32))
    (select (cmpf .une (subf x4 zK) (subf x4 zK)) (addf x4 zK)
      (addf (maximumf x4 zK) (Host.log1p (Host.exp (Host.negf (Host.absf (subf x4 zK)))))))

/-- Their reciprocals. -/
def invK (x4 : FVec Ideal S2 .f32) : FVec Ideal S2 .f32 :=
  Host.divf (broadcastInDim S2 ![] Facts₀.bcast_S_S2 (constant (F := Ideal) S_ .f32 0x3F800000#32)) (lsK x4)

/-- The reciprocals laid over every point: the entry at `(b, i, d)` is coordinate `d`'s. -/
def invB (x4 : FVec Ideal S2 .f32) : FVec Ideal S8x4096x2 .f32 :=
  broadcastInDim S8x4096x2 ![0, 1, 2] Facts₀.bcast_S1x1x2_S8x4096x2_0_1_2
    (broadcastInDim S1x1x2 ![2] Facts₀.bcast_S2_S1x1x2_2 (invK x4))

/-- A point set with every coordinate scaled by the reciprocal lengthscale. -/
def scaled (x : FVec Ideal S8x4096x2 .f32) (x4 : FVec Ideal S2 .f32) : FVec Ideal S8x4096x2 .f32 :=
  mulf x (invB x4)

/-- The squared norm of each scaled point. -/
def normOf (x : FVec Ideal S8x4096x2 .f32) (x4 : FVec Ideal S2 .f32) : FVec Ideal S8x4096 .f32 :=
  Host.reduceAdd (mulf (scaled x x4) (scaled x x4)) (constant (F := Ideal) S_ .f32 0x00000000#32)
    Facts₀.reducesTo_S8x4096x2_S8x4096_d2 Facts₀.h_S_

/-- The grid points' squared norms as a column. -/
def normCol (x : FVec Ideal S8x4096x2 .f32) (x4 : FVec Ideal S2 .f32) : FVec Ideal S8x4096x1 .f32 :=
  broadcastInDim S8x4096x1 ![0, 1] Facts₀.bcast_S8x4096_S8x4096x1_0_1 (normOf x x4)

/-- The off-grid points' squared norms as a row. -/
def normRow (x : FVec Ideal S8x4096x2 .f32) (x4 : FVec Ideal S2 .f32) : FVec Ideal S8x1x4096 .f32 :=
  broadcastInDim S8x1x4096 ![0, 2] Facts₀.bcast_S8x4096_S8x1x4096_0_2 (normOf x x4)

/-! ## The stages at an index -/

theorem lsK_apply (x4 : FVec Ideal S2 .f32) (d : S2.Idx) : lsK x4 d = lsAt (x4 d) := rfl

/-- The reciprocal laid over the points reads coordinate `d`'s reciprocal lengthscale. -/
theorem invB_apply (x4 : FVec Ideal S2 .f32) (b : Fin 8) (i : Fin 4096) (d : Fin 2) :
    invB x4 (ix3 b i d) = Ideal.div w1 (lsAt (x4 (ix1 d))) := by
  unfold invB
  refine (broadcastInDim_apply _ _ _ (ix3 b i d) (ix3 (0 : Fin 1) (0 : Fin 1) d) (fun a => match a with
    | ⟨0, _⟩ => by show (0 : ℕ) = if (1 : Nat) = 1 then 0 else b.val; rw [if_pos rfl]
    | ⟨1, _⟩ => by show (0 : ℕ) = if (1 : Nat) = 1 then 0 else i.val; rw [if_pos rfl]
    | ⟨2, _⟩ => by show d.val = if (2 : Nat) = 1 then 0 else d.val; rw [if_neg (by decide)])).trans ?_
  refine (broadcastInDim_apply _ _ _ (ix3 (0 : Fin 1) (0 : Fin 1) d) (ix1 d) (fun a => match a with
    | ⟨0, _⟩ => by show d.val = if (2 : Nat) = 1 then 0 else d.val; rw [if_neg (by decide)])).trans ?_
  rfl

/-- A scaled point's coordinate is the coordinate times the reciprocal lengthscale. -/
theorem scaled_apply (x : FVec Ideal S8x4096x2 .f32) (x4 : FVec Ideal S2 .f32) (b : Fin 8) (i : Fin 4096) (d : Fin 2) :
    scaled x x4 (ix3 b i d) = x (ix3 b i d) * Ideal.div w1 (lsAt (x4 (ix1 d))) := by
  unfold scaled
  rw [mulf_apply, invB_apply]

/-- The squared norm of scaled point `(b, i)`: zero plus the sum of its two squared coordinates. -/
theorem normOf_apply (x : FVec Ideal S8x4096x2 .f32) (x4 : FVec Ideal S2 .f32) (b : Fin 8) (i : Fin 4096) :
    normOf x x4 (ix2 b i) = w0 + ∑ d : Fin 2, scaled x x4 (ix3 b i d) * scaled x x4 (ix3 b i d) := by
  unfold normOf
  generalize scaled x x4 = y
  simp only [Host.reduceAdd, Ideal.hostReduceAdd_def]
  rw [Ideal.hostReduceAdd_single Facts₀.reducesTo_S8x4096x2_S8x4096_d2 (by decide)]
  refine congrArg (_ + ·) (Finset.sum_congr rfl fun k _ => ?_)
  have e : ∀ (h : S8x4096x2.Reduces [2] S8x4096), h.lift (ix2 b i) k = ix3 b i k := fun h =>
    funext fun a => Fin.ext (by match a with | ⟨0, _⟩ => rfl | ⟨1, _⟩ => rfl | ⟨2, _⟩ => rfl)
  rw [mulf_apply, e]
  rfl

theorem normCol_apply (x : FVec Ideal S8x4096x2 .f32) (x4 : FVec Ideal S2 .f32) (b : Fin 8) (i : Fin 4096) (u : Fin 1) :
    normCol x x4 (ix3 b i u) = normOf x x4 (ix2 b i) := by
  unfold normCol
  exact broadcastInDim_apply _ _ _ (ix3 b i u) (ix2 b i) (fun a => match a with
    | ⟨0, _⟩ => by show b.val = if (8 : Nat) = 1 then 0 else b.val; rw [if_neg (by decide)]
    | ⟨1, _⟩ => by show i.val = if (4096 : Nat) = 1 then 0 else i.val; rw [if_neg (by decide)])

theorem normRow_apply (x : FVec Ideal S8x4096x2 .f32) (x4 : FVec Ideal S2 .f32) (b : Fin 8) (u : Fin 1) (j : Fin 4096) :
    normRow x x4 (ix3 b u j) = normOf x x4 (ix2 b j) := by
  unfold normRow
  exact broadcastInDim_apply _ _ _ (ix3 b u j) (ix2 b j) (fun a => match a with
    | ⟨0, _⟩ => by show b.val = if (8 : Nat) = 1 then 0 else b.val; rw [if_neg (by decide)]
    | ⟨1, _⟩ => by show j.val = if (4096 : Nat) = 1 then 0 else j.val; rw [if_neg (by decide)])

/-! ## The region finds these stages in the windows' arrays -/

variable (m : (ℓ : Loc nD τ sig) → Buf (Elt Ideal) ℓ)

set_option maxHeartbeats 4000000 in
/-- Window 0's array: the scaled grid points. -/
theorem V_scaledOn (c : Dev nD) : (V m c main_v7 : S8x4096x2.Idx → EReal)
    = scaled (m ((c : Thread nD τ).loc main_arg2)) (m ((c : Thread nD τ).loc main_arg4)) := by
  dsimp only [V]
  simp only [hostOps0, hostOps0_1, List.flatten_cons, List.flatten_nil, List.append_nil, List.cons_append, List.nil_append]
  after_results_simp
  rfl

set_option maxHeartbeats 4000000 in
/-- Window 1's array: the grid points' squared norms, a column. -/
theorem V_normOn (c : Dev nD) : (V m c main_v13 : S8x4096x1.Idx → EReal)
    = normCol (m ((c : Thread nD τ).loc main_arg2)) (m ((c : Thread nD τ).loc main_arg4)) := by
  dsimp only [V]
  simp only [hostOps0, hostOps0_1, List.flatten_cons, List.flatten_nil, List.append_nil, List.cons_append, List.nil_append]
  after_results_simp
  rfl

set_option maxHeartbeats 4000000 in
/-- Window 2's array: the scaled off-grid points. -/
theorem V_scaledOff (c : Dev nD) : (V m c main_v10 : S8x4096x2.Idx → EReal)
    = scaled (m ((c : Thread nD τ).loc main_arg0)) (m ((c : Thread nD τ).loc main_arg4)) := by
  dsimp only [V]
  simp only [hostOps0, hostOps0_1, List.flatten_cons, List.flatten_nil, List.append_nil, List.cons_append, List.nil_append]
  after_results_simp
  rfl

set_option maxHeartbeats 4000000 in
/-- Window 3's array: the off-grid points' squared norms, a row. -/
theorem V_normOff (c : Dev nD) : (V m c main_v16 : S8x1x4096.Idx → EReal)
    = normRow (m ((c : Thread nD τ).loc main_arg0)) (m ((c : Thread nD τ).loc main_arg4)) := by
  dsimp only [V]
  simp only [hostOps0, hostOps0_1, List.flatten_cons, List.flatten_nil, List.append_nil, List.cons_append, List.nil_append]
  after_results_simp
  rfl

end Cert.Rbf.Ker

end
-- ==== Proof.LibColumn.lean ====
/-
  A column broadcast over many columns, read at an index: an `[a, 1]` array broadcast to `[a, b]` reads, at
  `(p, c)`, the column's entry of row `p`.
-/
import Idealize.ShloMosaic.Lib.Pipeline.Value
import Idealize.ShloMosaic.Lib.ValueIdx

namespace Cert.LibColumn

open Idealize.ShloMosaic Idealize.ShloMosaic.ValueIdx

variable {α : Type}

/-- An `[a, 1]` array broadcast to `[a, b]` reads, at `(p, c)`, the operand at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.KernelBody.lean ====
/-
  What the kernel body stores, read at an index.

  At one grid point the body holds a block of 512 scaled grid points `q` with their squared norms (a column), all
  4096 scaled off-grid points `k` of the batch with their squared norms (a row), the 4096 off-grid values and
  the 512 grid values. It forms the 512 × 4096 table of inner products `⟨q r, k j⟩` (a contraction over the two
  coordinates), the expanded squared distance `|q r|² + |k j|² - 2 ⟨q r, k j⟩`, the weights `exp (-½ · that)`, the
  weighted sums of the off-grid values (a contraction over the 4096 off-grid points), and stores the grid values
  and the weighted sums side by side: columns 0, 1 and columns 2, 3 of a 512 × 4 block.
-/
import proofs.«101467_j57397942944248_2_alg».proof.Proof.Gen.KernelIdeal.Skeleton
import proofs.«101467_j57397942944248_2_alg».proof.Proof.Spec
import proofs.«101467_j57397942944248_2_alg».proof.Proof.LibConcat2
import proofs.«101467_j57397942944248_2_alg».proof.Proof.LibColumn
import Idealize.ShloMosaic.Lib.Pipeline.Value
import Idealize.ShloMosaic.Lib.ValueIdx
import Idealize.ShloMosaic.Lib.ValueLayout
import Idealize.ShloMosaic.PureOps.Ideal.Laws

noncomputable section

namespace Cert.Rbf.Ker

open Cert.KernelIdeal Cert.KernelIdeal.Gen Idealize.ShloMosaic Idealize.ShloMosaic.ValueIdx Cert.Rbf

local notation "Dqk" => dot_S512x2_S4096x2_S512x4096_1_1_0_0_n_n
local notation "Dwy" => dot_S512x4096_S4096x2_S512x2_1_0_0_1_n_n

/-! ## The two contractions -/

theorem qk_lhs_0 (i : S512x4096.Idx) (q : (Dqk).contr.Idx) : ((Dqk).lhsIdx i q 0).val = (i 0).val := by
  unfold DotDims.lhsIdx
  rw [dif_neg (show ¬(0 : Fin S512x2.rank) ∈ (Dqk).lhsBatch by decide),
    dif_pos (show (0 : Fin S512x2.rank) ∈ (Dqk).lhsNonContracting by decide)]
  rfl
theorem qk_lhs_1 (i : S512x4096.Idx) (q : (Dqk).contr.Idx) : ((Dqk).lhsIdx i q 1).val = (q ⟨0, by decide⟩).val :=
  (Dqk).lhsIdx_val_of_single rfl i q
theorem qk_rhs_0 (i : S512x4096.Idx) (q : (Dqk).contr.Idx) : ((Dqk).rhsIdx i q 0).val = (i 1).val := by
  unfold DotDims.rhsIdx
  rw [dif_neg (show ¬(0 : Fin S4096x2.rank) ∈ (Dqk).rhsBatch by decide),
    dif_pos (show (0 : Fin S4096x2.rank) ∈ (Dqk).rhsNonContracting by decide)]
  rfl
theorem qk_rhs_1 (i : S512x4096.Idx) (q : (Dqk).contr.Idx) : ((Dqk).rhsIdx i q 1).val = (q ⟨0, by decide⟩).val :=
  (Dqk).rhsIdx_val_of_single rfl i q

/-- The table of inner products: row `r` of the left operand against row `j` of the right, over the two coordinates. -/
theorem inner_apply (a : FVec Ideal S512x2 .f32) (k : FVec Ideal S4096x2 .f32) (r : Fin 512) (j : Fin 4096) :
    matmul Dqk (some .fp32) a k (constant S512x4096 .f32 0x00000000#32) (ix2 r j)
      = ∑ d : Fin 2, a (ix2 r d) * k (ix2 j d) := by
  simp only [matmul]
  rw [Ideal.matmul_constant_zero_apply, ← Equiv.sum_comp (contrEquiv1 Dqk 2 rfl rfl).symm]
  refine Finset.sum_congr rfl fun d _ => ?_
  have hk := contrEquiv1_symm_val Dqk 2 rfl rfl d
  have el : (Dqk).lhsIdx (ix2 r j) ((contrEquiv1 Dqk 2 rfl rfl).symm d) = ix2 r d := funext fun ax => Fin.ext (by
    match ax with
    | ⟨0, _⟩ => exact qk_lhs_0 _ _
    | ⟨1, _⟩ => exact (qk_lhs_1 _ _).trans hk)
  have er : (Dqk).rhsIdx (ix2 r j) ((contrEquiv1 Dqk 2 rfl rfl).symm d) = ix2 j d := funext fun ax => Fin.ext (by
    match ax with
    | ⟨0, _⟩ => exact qk_rhs_0 _ _
    | ⟨1, _⟩ => exact (qk_rhs_1 _ _).trans hk)
  rw [el, er]

theorem wy_lhs_0 (i : S512x2.Idx) (q : (Dwy).contr.Idx) : ((Dwy).lhsIdx i q 0).val = (i 0).val := by
  unfold DotDims.lhsIdx
  rw [dif_neg (show ¬(0 : Fin S512x4096.rank) ∈ (Dwy).lhsBatch by decide),
    dif_pos (show (0 : Fin S512x4096.rank) ∈ (Dwy).lhsNonContracting by decide)]
  rfl
theorem wy_lhs_1 (i : S512x2.Idx) (q : (Dwy).contr.Idx) : ((Dwy).lhsIdx i q 1).val = (q ⟨0, by decide⟩).val :=
  (Dwy).lhsIdx_val_of_single rfl i q
theorem wy_rhs_0 (i : S512x2.Idx) (q : (Dwy).contr.Idx) : ((Dwy).rhsIdx i q 0).val = (q ⟨0, by decide⟩).val :=
  (Dwy).rhsIdx_val_of_single rfl i q
theorem wy_rhs_1 (i : S512x2.Idx) (q : (Dwy).contr.Idx) : ((Dwy).rhsIdx i q 1).val = (i 1).val := by
  unfold DotDims.rhsIdx
  rw [dif_neg (show ¬(1 : Fin S4096x2.rank) ∈ (Dwy).rhsBatch by decide),
    dif_pos (show (1 : Fin S4096x2.rank) ∈ (Dwy).rhsNonContracting by decide)]
  rfl

/-- The weighted sums: row `r` of the weights against column `e` of the values, over the 4096 off-grid points. -/
theorem weighted_apply (w : FVec Ideal S512x4096 .f32) (y : FVec Ideal S4096x2 .f32) (r : Fin 512) (e : Fin 2) :
    matmul Dwy (some .fp32) w y (constant S512x2 .f32 0x00000000#32) (ix2 r e)
      = ∑ j : Fin 4096, w (ix2 r j) * y (ix2 j e) := by
  simp only [matmul]
  rw [Ideal.matmul_constant_zero_apply, ← Equiv.sum_comp (contrEquiv1 Dwy 4096 rfl rfl).symm]
  refine Finset.sum_congr rfl fun j _ => ?_
  have hk := contrEquiv1_symm_val Dwy 4096 rfl rfl j
  have el : (Dwy).lhsIdx (ix2 r e) ((contrEquiv1 Dwy 4096 rfl rfl).symm j) = ix2 r j := funext fun ax => Fin.ext (by
    match ax with
    | ⟨0, _⟩ => exact wy_lhs_0 _ _
    | ⟨1, _⟩ => exact (wy_lhs_1 _ _).trans hk)
  have er : (Dwy).rhsIdx (ix2 r e) ((contrEquiv1 Dwy 4096 rfl rfl).symm j) = ix2 j e := funext fun ax => Fin.ext (by
    match ax with
    | ⟨0, _⟩ => exact (wy_rhs_0 _ _).trans hk
    | ⟨1, _⟩ => exact wy_rhs_1 _ _)
  rw [el, er]

/-! ## The body's values -/

/-- The expanded squared distances of the block's 512 grid points to the batch's 4096 off-grid points. -/
def distBlk (v0 : Vec Ideal S1x512x2 .f32) (v2 : Vec Ideal S1x512x1 .f32) (v4 : Vec Ideal S1x4096x2 .f32)
    (v6 : Vec Ideal S1x1x4096 .f32) : FVec Ideal S512x4096 .f32 :=
  subf (addf (broadcastTo S512x4096 (shapeCast S512x1 v2 Facts₀.shapeCasts_S1x512x1_S512x1 : FVec Ideal S512x1 .f32) Facts₀.broadcasts_S512x1_S512x4096)
      (broadcastTo S512x4096 (shapeCast S1x4096 v6 Facts₀.shapeCasts_S1x1x4096_S1x4096 : FVec Ideal S1x4096 .f32) Facts₀.broadcasts_S1x4096_S512x4096))
    (mulf (broadcast S512x4096 (Scalar.ofBits (F := Ideal) .f32 0x40000000#32))
      (matmul Dqk (some .fp32) (shapeCast S512x2 v0 Facts₀.shapeCasts_S1x512x2_S512x2 : FVec Ideal S512x2 .f32)
        (shapeCast S4096x2 v4 Facts₀.shapeCasts_S1x4096x2_S4096x2 : FVec Ideal S4096x2 .f32) (constant S512x4096 .f32 0x00000000#32)))

theorem distBlk_apply (v0 : Vec Ideal S1x512x2 .f32) (v2 : Vec Ideal S1x512x1 .f32) (v4 : Vec Ideal S1x4096x2 .f32)
    (v6 : Vec Ideal S1x1x4096 .f32) (r : Fin 512) (j : Fin 4096) :
    distBlk v0 v2 v4 v6 (ix2 r j)
      = (v2 (ix3 (0 : Fin 1) r (0 : Fin 1)) + v6 (ix3 (0 : Fin 1) (0 : Fin 1) j))
        - w2 * ∑ d : Fin 2, v0 (ix3 (0 : Fin 1) r d) * v4 (ix3 (0 : Fin 1) j d) := by
  unfold distBlk
  rw [subf_apply, addf_apply, mulf_apply, broadcast_apply, LibColumn.broadcastTo_a1_ab_apply, broadcastTo_1b_ab_apply,
    inner_apply, shapeCast_1ab_ab_apply, shapeCast_1ab_ab_apply]
  refine congrArg (fun s => (v2 (ix3 (0 : Fin 1) r (0 : Fin 1)) + v6 (ix3 (0 : Fin 1) (0 : Fin 1) j)) - w2 * s)
    (Finset.sum_congr rfl fun d _ => ?_)
  rw [shapeCast_1ab_ab_apply, shapeCast_1ab_ab_apply]

/-- The weights. -/
def weightBlk (v0 : Vec Ideal S1x512x2 .f32) (v2 : Vec Ideal S1x512x1 .f32) (v4 : Vec Ideal S1x4096x2 .f32)
    (v6 : Vec Ideal S1x1x4096 .f32) : FVec Ideal S512x4096 .f32 :=
  exp (mulf (broadcast S512x4096 (Scalar.ofBits (F := Ideal) .f32 0xBF000000#32)) (distBlk v0 v2 v4 v6))

theorem weightBlk_apply (v0 : Vec Ideal S1x512x2 .f32) (v2 : Vec Ideal S1x512x1 .f32) (v4 : Vec Ideal S1x4096x2 .f32)
    (v6 : Vec Ideal S1x1x4096 .f32) (r : Fin 512) (j : Fin 4096) :
    weightBlk v0 v2 v4 v6 (ix2 r j)
      = Ideal.exp (wNegHalf * ((v2 (ix3 (0 : Fin 1) r (0 : Fin 1)) + v6 (ix3 (0 : Fin 1) (0 : Fin 1) j))
        - w2 * ∑ d : Fin 2, v0 (ix3 (0 : Fin 1) r d) * v4 (ix3 (0 : Fin 1) j d))) := by
  rw [← distBlk_apply]
  rfl

/-- The body's stored value is the grid values beside the weighted sums, as a `[1, 512, 4]` block. -/
theorem pay_eq (v0 : Vec Ideal S1x512x2 .f32) (v2 : Vec Ideal S1x512x1 .f32) (v4 : Vec Ideal S1x4096x2 .f32)
    (v6 : Vec Ideal S1x1x4096 .f32) (v8 : Vec Ideal S1x4096x2 .f32) (v10 : Vec Ideal S1x512x2 .f32) :
    k0_pay1 v0 v2 v4 v6 v8 v10
      = shapeCast S1x512x4 (concatenate S512x4 1
          [⟨S512x2, (shapeCast S512x2 v10 Facts₀.shapeCasts_S1x512x2_S512x2 : FVec Ideal S512x2 .f32)⟩,
           ⟨S512x2, matmul Dwy (some .fp32) (weightBlk v0 v2 v4 v6)
              (shapeCast S4096x2 v8 Facts₀.shapeCasts_S1x4096x2_S4096x2 : FVec Ideal S4096x2 .f32)
              (constant S512x2 .f32 0x00000000#32)⟩] Facts₀.concatenates_S512x2_S512x2_S512x4_d1)
          Facts₀.shapeCasts_S512x4_S1x512x4 := rfl

/-- What the body stores at row `r`, column `e` of its block, from the six loaded blocks. -/
def blockOut (v0 : Vec Ideal S1x512x2 .f32) (v2 : Vec Ideal S1x512x1 .f32) (v4 : Vec Ideal S1x4096x2 .f32)
    (v6 : Vec Ideal S1x1x4096 .f32) (v8 : Vec Ideal S1x4096x2 .f32) (v10 : Vec Ideal S1x512x2 .f32)
    (r : Fin 512) (e : Fin 4) : EReal :=
  if h : e.val < 2 then v10 (ix3 (0 : Fin 1) r ⟨e.val, h⟩)
  else ∑ j : Fin 4096,
    Ideal.exp (wNegHalf * ((v2 (ix3 (0 : Fin 1) r (0 : Fin 1)) + v6 (ix3 (0 : Fin 1) (0 : Fin 1) j))
        - w2 * ∑ d : Fin 2, v0 (ix3 (0 : Fin 1) r d) * v4 (ix3 (0 : Fin 1) j d)))
      * v8 (ix3 (0 : Fin 1) j ⟨e.val - 2, by have := e.isLt; omega⟩)

theorem pay_apply (v0 : Vec Ideal S1x512x2 .f32) (v2 : Vec Ideal S1x512x1 .f32) (v4 : Vec Ideal S1x4096x2 .f32)
    (v6 : Vec Ideal S1x1x4096 .f32) (v8 : Vec Ideal S1x4096x2 .f32) (v10 : Vec Ideal S1x512x2 .f32)
    (u : Fin 1) (r : Fin 512) (e : Fin 4) :
    k0_pay1 v0 v2 v4 v6 v8 v10 (ix3 u r e) = blockOut v0 v2 v4 v6 v8 v10 r e := by
  rw [pay_eq]
  unfold blockOut
  refine (shapeCast_ab_1ab_apply _ _ u r e).trans ?_
  by_cases h : e.val < 2
  · rw [dif_pos h]
    refine (LibConcat2.last2_left _ _ _ r e h).trans ?_
    exact shapeCast_1ab_ab_apply v10 _ r ⟨e.val, h⟩
  · rw [dif_neg h]
    have he : 2 ≤ e.val := Nat.le_of_not_lt h
    have he' : e.val - 2 < 2 := by have := e.isLt; omega
    refine (LibConcat2.last2_right _ _ _ r e he he').trans ?_
    refine (weighted_apply _ _ r ⟨e.val - 2, he'⟩).trans ?_
    refine Finset.sum_congr rfl fun j _ => ?_
    rw [weightBlk_apply, shapeCast_1ab_ab_apply]

end Cert.Rbf.Ker

end
-- ==== Proof.KernelValue.lean ====
/-
  From blocks to the array.

  The grid has 8 × 8 points: point `(b, q)` handles batch `b` and grid points `512 q … 512 q + 511`. Its block of
  the result is rows `512 q + r` of batch `b`; its blocks of the scaled grid points, their norms and the grid
  values are the same rows; its blocks of the scaled off-grid points, their norms and the off-grid values are the
  whole batch `b`. So what point `(b, q)` writes at row `r`, column `e` is one function `GK` of the six arrays at
  `(b, 512 q + r, e)`, the 64 blocks tile the result, and the result ends holding `GK` everywhere.
-/
import proofs.«101467_j57397942944248_2_alg».proof.Proof.Gen.KernelIdeal.Value
import proofs.«101467_j57397942944248_2_alg».proof.Proof.KernelBody
import Idealize.ShloMosaic.Lib.Pipeline.Value

noncomputable section

namespace Cert.Rbf.Ker

open Cert.KernelIdeal Cert.KernelIdeal.Gen Cert.KernelIdeal.Value
open Idealize.ShloMosaic Idealize.ShloMosaic.TcCoe Idealize.SL.Sem Idealize.ShloMosaic.ValueIdx Cert.Rbf
open Idealize.ShloMosaic.Pipeline (Dat)

variable (m : (ℓ : Loc nD τ sig) → Buf (Elt Ideal) ℓ) (ρ : Dev nD → PrngReg)

theorem hz : (![0, 0, 0] : Fin 3 → Nat) = fun _ => 0 := funext fun a => by fin_cases a <;> rfl

/-! ## The whole-array function, in the kernel's spelling -/

/-- The result at batch `b`, grid point `i`, column `e`, from the six arrays the windows read: the grid values in
    columns 0 and 1; in columns 2 and 3 the sum over the off-grid points `j` of
    `exp (-½ (|q i|² + |k j|² - 2 ⟨q i, k j⟩))` times the off-grid value. -/
def GKat (xq : S8x4096x2.Idx → EReal) (qn : S8x4096x1.Idx → EReal) (xk : S8x4096x2.Idx → EReal)
    (kn : S8x1x4096.Idx → EReal) (yoff yon : S8x4096x2.Idx → EReal) (b : Fin 8) (i : Fin 4096) (e : Fin 4) : EReal :=
  if h : e.val < 2 then yon (ix3 b i ⟨e.val, h⟩)
  else ∑ j : Fin 4096,
    Ideal.exp (wNegHalf * ((qn (ix3 b i (0 : Fin 1)) + kn (ix3 b (0 : Fin 1) j))
        - w2 * ∑ d : Fin 2, xq (ix3 b i d) * xk (ix3 b j d)))
      * yoff (ix3 b j ⟨e.val - 2, by have := e.isLt; omega⟩)

def GK (xq : S8x4096x2.Idx → EReal) (qn : S8x4096x1.Idx → EReal) (xk : S8x4096x2.Idx → EReal)
    (kn : S8x1x4096.Idx → EReal) (yoff yon : S8x4096x2.Idx → EReal) : S8x4096x4.Idx → EReal :=
  fun o => GKat xq qn xk kn yoff yon (o 0) (o 1) (o 2)

/-! ## The index maps over the grid -/

/-- The output's block index: a batch, a row block, column block 0. -/
theorem idx6 : ∀ t : Fin cfg0.N, win0_6.index t (0 : Fin 3) < 8 ∧ win0_6.index t (1 : Fin 3) < 8 ∧ win0_6.index t (2 : Fin 3) = 0 :=
  (by decide +kernel : ∀ t : Fin grid0.N, _)
/-- The windows that move with the output's rows. -/
theorem idx0 : ∀ t : Fin cfg0.N, win0_0.index t (0 : Fin 3) = win0_6.index t (0 : Fin 3)
    ∧ win0_0.index t (1 : Fin 3) = win0_6.index t (1 : Fin 3) ∧ win0_0.index t (2 : Fin 3) = 0 :=
  (by decide +kernel : ∀ t : Fin grid0.N, _)
theorem idx1 : ∀ t : Fin cfg0.N, win0_1.index t (0 : Fin 3) = win0_6.index t (0 : Fin 3)
    ∧ win0_1.index t (1 : Fin 3) = win0_6.index t (1 : Fin 3) ∧ win0_1.index t (2 : Fin 3) = 0 :=
  (by decide +kernel : ∀ t : Fin grid0.N, _)
theorem idx5 : ∀ t : Fin cfg0.N, win0_5.index t (0 : Fin 3) = win0_6.index t (0 : Fin 3)
    ∧ win0_5.index t (1 : Fin 3) = win0_6.index t (1 : Fin 3) ∧ win0_5.index t (2 : Fin 3) = 0 :=
  (by decide +kernel : ∀ t : Fin grid0.N, _)
/-- The windows that take the output's whole batch. -/
theorem idx2 : ∀ t : Fin cfg0.N, win0_2.index t (0 : Fin 3) = win0_6.index t (0 : Fin 3)
    ∧ win0_2.index t (1 : Fin 3) = 0 ∧ win0_2.index t (2 : Fin 3) = 0 :=
  (by decide +kernel : ∀ t : Fin grid0.N, _)
theorem idx3 : ∀ t : Fin cfg0.N, win0_3.index t (0 : Fin 3) = win0_6.index t (0 : Fin 3)
    ∧ win0_3.index t (1 : Fin 3) = 0 ∧ win0_3.index t (2 : Fin 3) = 0 :=
  (by decide +kernel : ∀ t : Fin grid0.N, _)
theorem idx4 : ∀ t : Fin cfg0.N, win0_4.index t (0 : Fin 3) = win0_6.index t (0 : Fin 3)
    ∧ win0_4.index t (1 : Fin 3) = 0 ∧ win0_4.index t (2 : Fin 3) = 0 :=
  (by decide +kernel : ∀ t : Fin grid0.N, _)
/-- Every (batch, row block) is some point's. -/
theorem idx_onto : ∀ (q0 q1 : Fin 8), ∃ t : Fin cfg0.N, win0_6.index t = ![q0.val, q1.val, 0] :=
  (by decide +kernel : ∀ (q0 q1 : Fin 8), ∃ t : Fin grid0.N, win0_6.index t = ![q0.val, q1.val, 0])

/-! ## Each input block as entries of its array -/

theorem iblk0_apply (c : Dev nD) (t : Fin cfg0.N) (x : S1x512x2.Idx) (k : S8x4096x2.Idx)
    (h0 : (k 0).val = win0_6.index t (0 : Fin 3)) (h1 : (k 1).val = win0_6.index t (1 : Fin 3) * 512 + (x 1).val)
    (h2 : (k 2).val = (x 2).val) :
    (iblk m c 0 t : Vec Ideal S1x512x2 .f32) x = (V m c main_v7 : S8x4096x2.Idx → EReal) k := by
  obtain ⟨e0, e1, e2⟩ := idx0 t
  have hx0 : (x 0).val < 1 := (x 0).isLt
  unfold iblk
  rw [View.read_apply]
  show (V m c main_v7 : S8x4096x2.Idx → EReal) _ = _
  refine congrArg (V m c main_v7 : S8x4096x2.Idx → EReal) (funext fun a => Fin.ext ?_)
  match a with
  | ⟨0, _⟩ => show win0_0.index t (0 : Fin 3) * 1 + 1 * (x 0).val = (k 0).val; omega
  | ⟨1, _⟩ => show win0_0.index t (1 : Fin 3) * 512 + 1 * (x 1).val = (k 1).val; omega
  | ⟨2, _⟩ => show win0_0.index t (2 : Fin 3) * 2 + 1 * (x 2).val = (k 2).val; omega

theorem iblk1_apply (c : Dev nD) (t : Fin cfg0.N) (x : S1x512x1.Idx) (k : S8x4096x1.Idx)
    (h0 : (k 0).val = win0_6.index t (0 : Fin 3)) (h1 : (k 1).val = win0_6.index t (1 : Fin 3) * 512 + (x 1).val) :
    (iblk m c 1 t : Vec Ideal S1x512x1 .f32) x = (V m c main_v13 : S8x4096x1.Idx → EReal) k := by
  obtain ⟨e0, e1, e2⟩ := idx1 t
  have hx0 : (x 0).val < 1 := (x 0).isLt
  have hx2 : (x 2).val < 1 := (x 2).isLt
  have hk2 : (k 2).val < 1 := (k 2).isLt
  unfold iblk
  rw [View.read_apply]
  show (V m c main_v13 : S8x4096x1.Idx → EReal) _ = _
  refine congrArg (V m c main_v13 : S8x4096x1.Idx → EReal) (funext fun a => Fin.ext ?_)
  match a with
  | ⟨0, _⟩ => show win0_1.index t (0 : Fin 3) * 1 + 1 * (x 0).val = (k 0).val; omega
  | ⟨1, _⟩ => show win0_1.index t (1 : Fin 3) * 512 + 1 * (x 1).val = (k 1).val; omega
  | ⟨2, _⟩ => show win0_1.index t (2 : Fin 3) * 1 + 1 * (x 2).val = (k 2).val; omega

theorem iblk2_apply (c : Dev nD) (t : Fin cfg0.N) (x : S1x4096x2.Idx) (k : S8x4096x2.Idx)
    (h0 : (k 0).val = win0_6.index t (0 : Fin 3)) (h1 : (k 1).val = (x 1).val) (h2 : (k 2).val = (x 2).val) :
    (iblk m c 2 t : Vec Ideal S1x4096x2 .f32) x = (V m c main_v10 : S8x4096x2.Idx → EReal) k := by
  obtain ⟨e0, e1, e2⟩ := idx2 t
  have hx0 : (x 0).val < 1 := (x 0).isLt
  unfold iblk
  rw [View.read_apply]
  show (V m c main_v10 : S8x4096x2.Idx → EReal) _ = _
  refine congrArg (V m c main_v10 : S8x4096x2.Idx → EReal) (funext fun a => Fin.ext ?_)
  match a with
  | ⟨0, _⟩ => show win0_2.index t (0 : Fin 3) * 1 + 1 * (x 0).val = (k 0).val; omega
  | ⟨1, _⟩ => show win0_2.index t (1 : Fin 3) * 4096 + 1 * (x 1).val = (k 1).val; omega
  | ⟨2, _⟩ => show win0_2.index t (2 : Fin 3) * 2 + 1 * (x 2).val = (k 2).val; omega

theorem iblk3_apply (c : Dev nD) (t : Fin cfg0.N) (x : S1x1x4096.Idx) (k : S8x1x4096.Idx)
    (h0 : (k 0).val = win0_6.index t (0 : Fin 3)) (h2 : (k 2).val = (x 2).val) :
    (iblk m c 3 t : Vec Ideal S1x1x4096 .f32) x = (V m c main_v16 : S8x1x4096.Idx → EReal) k := by
  obtain ⟨e0, e1, e2⟩ := idx3 t
  have hx0 : (x 0).val < 1 := (x 0).isLt
  have hx1 : (x 1).val < 1 := (x 1).isLt
  have hk1 : (k 1).val < 1 := (k 1).isLt
  unfold iblk
  rw [View.read_apply]
  show (V m c main_v16 : S8x1x4096.Idx → EReal) _ = _
  refine congrArg (V m c main_v16 : S8x1x4096.Idx → EReal) (funext fun a => Fin.ext ?_)
  match a with
  | ⟨0, _⟩ => show win0_3.index t (0 : Fin 3) * 1 + 1 * (x 0).val = (k 0).val; omega
  | ⟨1, _⟩ => show win0_3.index t (1 : Fin 3) * 1 + 1 * (x 1).val = (k 1).val; omega
  | ⟨2, _⟩ => show win0_3.index t (2 : Fin 3) * 4096 + 1 * (x 2).val = (k 2).val; omega

theorem iblk4_apply (c : Dev nD) (t : Fin cfg0.N) (x : S1x4096x2.Idx) (k : S8x4096x2.Idx)
    (h0 : (k 0).val = win0_6.index t (0 : Fin 3)) (h1 : (k 1).val = (x 1).val) (h2 : (k 2).val = (x 2).val) :
    (iblk m c 4 t : Vec Ideal S1x4096x2 .f32) x = (V m c main_arg1 : S8x4096x2.Idx → EReal) k := by
  obtain ⟨e0, e1, e2⟩ := idx4 t
  have hx0 : (x 0).val < 1 := (x 0).isLt
  unfold iblk
  rw [View.read_apply]
  show (V m c main_arg1 : S8x4096x2.Idx → EReal) _ = _
  refine congrArg (V m c main_arg1 : S8x4096x2.Idx → EReal) (funext fun a => Fin.ext ?_)
  match a with
  | ⟨0, _⟩ => show win0_4.index t (0 : Fin 3) * 1 + 1 * (x 0).val = (k 0).val; omega
  | ⟨1, _⟩ => show win0_4.index t (1 : Fin 3) * 4096 + 1 * (x 1).val = (k 1).val; omega
  | ⟨2, _⟩ => show win0_4.index t (2 : Fin 3) * 2 + 1 * (x 2).val = (k 2).val; omega

theorem iblk5_apply (c : Dev nD) (t : Fin cfg0.N) (x : S1x512x2.Idx) (k : S8x4096x2.Idx)
    (h0 : (k 0).val = win0_6.index t (0 : Fin 3)) (h1 : (k 1).val = win0_6.index t (1 : Fin 3) * 512 + (x 1).val)
    (h2 : (k 2).val = (x 2).val) :
    (iblk m c 5 t : Vec Ideal S1x512x2 .f32) x = (V m c main_arg3 : S8x4096x2.Idx → EReal) k := by
  obtain ⟨e0, e1, e2⟩ := idx5 t
  have hx0 : (x 0).val < 1 := (x 0).isLt
  unfold iblk
  rw [View.read_apply]
  show (V m c main_arg3 : S8x4096x2.Idx → EReal) _ = _
  refine congrArg (V m c main_arg3 : S8x4096x2.Idx → EReal) (funext fun a => Fin.ext ?_)
  match a with
  | ⟨0, _⟩ => show win0_5.index t (0 : Fin 3) * 1 + 1 * (x 0).val = (k 0).val; omega
  | ⟨1, _⟩ => show win0_5.index t (1 : Fin 3) * 512 + 1 * (x 1).val = (k 1).val; omega
  | ⟨2, _⟩ => show win0_5.index t (2 : Fin 3) * 2 + 1 * (x 2).val = (k 2).val; omega

/-! ## What a point writes is its block of `GK` -/

/-- The arrays the six input windows read, as the region finds them. -/
abbrev GKV (c : Dev nD) : S8x4096x4.Idx → EReal :=
  GK (V m c main_v7) (V m c main_v13) (V m c main_v10) (V m c main_v16) (V m c main_arg1) (V m c main_arg3)

/-- Over ANY six blocks and six arrays: if the blocks read the arrays at batch `b` — the grid-side blocks at row
    `i` where the block has row `r`, the off-grid-side blocks at the same row `j` — then what the body stores at row
    `r`, column `e` is `GKat` of the arrays at `(b, i, e)`. -/
theorem block_value_of_reads (x0 : Vec Ideal S1x512x2 .f32) (x1 : Vec Ideal S1x512x1 .f32) (x2 : Vec Ideal S1x4096x2 .f32)
    (x3 : Vec Ideal S1x1x4096 .f32) (x4 : Vec Ideal S1x4096x2 .f32) (x5 : Vec Ideal S1x512x2 .f32)
    (A0 : S8x4096x2.Idx → EReal) (A1 : S8x4096x1.Idx → EReal) (A2 : S8x4096x2.Idx → EReal)
    (A3 : S8x1x4096.Idx → EReal) (A4 A5 : S8x4096x2.Idx → EReal)
    (b : Fin 8) (i : Fin 4096) (u : Fin 1) (r : Fin 512) (e : Fin 4)
    (h0 : ∀ d : Fin 2, x0 (ix3 (0 : Fin 1) r d) = A0 (ix3 b i d))
    (h1 : x1 (ix3 (0 : Fin 1) r (0 : Fin 1)) = A1 (ix3 b i (0 : Fin 1)))
    (h2 : ∀ (j : Fin 4096) (d : Fin 2), x2 (ix3 (0 : Fin 1) j d) = A2 (ix3 b j d))
    (h3 : ∀ j : Fin 4096, x3 (ix3 (0 : Fin 1) (0 : Fin 1) j) = A3 (ix3 b (0 : Fin 1) j))
    (h4 : ∀ (j : Fin 4096) (d : Fin 2), x4 (ix3 (0 : Fin 1) j d) = A4 (ix3 b j d))
    (h5 : ∀ d : Fin 2, x5 (ix3 (0 : Fin 1) r d) = A5 (ix3 b i d)) :
    k0_pay1 x0 x1 x2 x3 x4 x5 (ix3 u r e) = GKat A0 A1 A2 A3 A4 A5 b i e := by
  rw [pay_apply]
  unfold blockOut GKat
  by_cases h : e.val < 2
  · rw [dif_pos h, dif_pos h]
    exact h5 _
  · rw [dif_neg h, dif_neg h]
    simp only [h0, h1, h2, h3, h4]

/-- The body's stored value at local index `y` of point `t` is `GK` at the array index `o` with the point's batch,
    the point's row block plus `y`'s row, and `y`'s column. -/
theorem block_value (c : Dev nD) (t : Fin cfg0.N) (y : S1x512x4.Idx) (o : S8x4096x4.Idx)
    (ho0 : (o 0).val = win0_6.index t (0 : Fin 3)) (ho1 : (o 1).val = win0_6.index t (1 : Fin 3) * 512 + (y 1).val)
    (ho2 : (o 2).val = (y 2).val) :
    k0_pay1 (iblk m c 0 t) (iblk m c 1 t) (iblk m c 2 t) (iblk m c 3 t) (iblk m c 4 t) (iblk m c 5 t) y = GKV m c o := by
  obtain ⟨u, r, e, rfl⟩ : ∃ (u : Fin 1) (r : Fin 512) (e : Fin 4), y = ix3 u r e := ⟨y 0, y 1, y 2, eq_ix3 y⟩
  obtain ⟨b, i, e', rfl⟩ : ∃ (b : Fin 8) (i : Fin 4096) (e' : Fin 4), o = ix3 b i e' := ⟨o 0, o 1, o 2, eq_ix3 o⟩
  obtain rfl : e' = e := Fin.ext ho2
  have hb : b.val = win0_6.index t (0 : Fin 3) := ho0
  have hi : i.val = win0_6.index t (1 : Fin 3) * 512 + r.val := ho1
  exact block_value_of_reads (iblk m c 0 t) (iblk m c 1 t) (iblk m c 2 t) (iblk m c 3 t) (iblk m c 4 t) (iblk m c 5 t)
    (V m c main_v7) (V m c main_v13) (V m c main_v10) (V m c main_v16) (V m c main_arg1) (V m c main_arg3) b i u r e'
    (fun d => iblk0_apply m c t (ix3 (0 : Fin 1) r d) (ix3 b i d) hb hi rfl)
    (iblk1_apply m c t (ix3 (0 : Fin 1) r (0 : Fin 1)) (ix3 b i (0 : Fin 1)) hb hi)
    (fun j d => iblk2_apply m c t (ix3 (0 : Fin 1) j d) (ix3 b j d) hb rfl rfl)
    (fun j => iblk3_apply m c t (ix3 (0 : Fin 1) (0 : Fin 1) j) (ix3 b (0 : Fin 1) j) hb rfl)
    (fun j d => iblk4_apply m c t (ix3 (0 : Fin 1) j d) (ix3 b j d) hb rfl rfl)
    (fun d => iblk5_apply m c t (ix3 (0 : Fin 1) r d) (ix3 b i d) hb hi rfl)

/-- WHAT POINT `t` WRITES BACK is block `t` of `GK` of the arrays as the region finds them. -/
theorem flushed_eq (c : Dev nD) (t : Fin cfg0.N) :
    (dats m 0 c).flushed 6 t = ((cfg0.win 6).blk t).view.read (Elt Ideal) (GKV m c) := by
  rw [Value.flushed6]
  unfold out0_6
  rw [View.canon_unit_zero hz]
  simp only [View.ld_unit_zero (S := S1x512x2) hz, View.ld_unit_zero (S := S1x512x1) hz,
    View.ld_unit_zero (S := S1x4096x2) hz, View.ld_unit_zero (S := S1x1x4096) hz]
  funext y
  rw [View.read_apply]
  have hy0 : (y 0).val < 1 := (y 0).isLt
  obtain ⟨-, -, e2⟩ := idx6 t
  refine block_value m c t y _ ?_ ?_ ?_
  · show win0_6.index t (0 : Fin 3) * 1 + 1 * (y 0).val = win0_6.index t (0 : Fin 3); omega
  · show win0_6.index t (1 : Fin 3) * 512 + 1 * (y 1).val = win0_6.index t (1 : Fin 3) * 512 + (y 1).val; omega
  · show win0_6.index t (2 : Fin 3) * 4 + 1 * (y 2).val = (y 2).val; omega

/-! ## The blocks tile the result -/

theorem mem_blk (t : Fin cfg0.N) (i : S8x4096x4.Idx) :
    i ∈ ((cfg0.win 6).blk t).view.set ↔ ∀ a : Fin 3, win0_6.index t a * S1x512x4.size a ≤ (i a).val
      ∧ (i a).val < win0_6.index t a * S1x512x4.size a + S1x512x4.size a := by
  show i ∈ ((View.whole main_v17).slice (win0_6.rect t)).set ↔ _
  rw [View.set_slice_whole, Rect.mem_set_unit]
  exact Iff.rfl

/-- Row `i` of batch `b` is in the block of the point with that batch and row block `i / 512`. -/
theorem cover (i : S8x4096x4.Idx) : ∃ t : Fin cfg0.N, (cfg0.win 6).flush t = true ∧ i ∈ ((cfg0.win 6).blk t).view.set := by
  have hi0 : (i 0).val < 8 := (i 0).isLt
  have hi1 : (i 1).val < 4096 := (i 1).isLt
  have hi2 : (i 2).val < 4 := (i 2).isLt
  obtain ⟨t, ht⟩ := idx_onto ⟨(i 0).val, hi0⟩ ⟨(i 1).val / 512, by omega⟩
  have q0 : win0_6.index t (0 : Fin 3) = (i 0).val := congrFun ht 0
  have q1 : win0_6.index t (1 : Fin 3) = (i 1).val / 512 := congrFun ht 1
  have q2 : win0_6.index t (2 : Fin 3) = 0 := congrFun ht 2
  refine ⟨t, flush0_6 t, ?_⟩
  rw [mem_blk]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 512 ≤ (i 1).val ∧ (i 1).val < win0_6.index t (1 : Fin 3) * 512 + 512; omega
  | ⟨2, _⟩ => show win0_6.index t (2 : Fin 3) * 4 ≤ (i 2).val ∧ (i 2).val < win0_6.index t (2 : Fin 3) * 4 + 4; omega

/-- THE ARRAY after the run is `GK` of the arrays as the region finds them. -/
theorem final (c : Dev nD) : (dats m 0 c).arrAt 6 cfg0.N = GKV m c :=
  (dats m 0 c).arrAt_eq_of_cover 6 (GKV m c) (fun t _ => flushed_eq m c t) (fun i => cover i)

end Cert.Rbf.Ker

end
-- ==== Proof.Lengthscale.lean ====
/-
  The lengthscale of one coordinate is a positive real.

  The lengthscale is spelt "a small floor plus the softplus of the parameter", the softplus as
  `max p 0 + log (1 + exp (-|p - 0|))` behind a test `p - 0 ≠ p - 0`. No extended real differs from itself,
  so the test fails. For a real parameter `r`: `max r 0` is a real that is not negative; `|r|` is a real, so
  `exp (-|r|)` is a positive real, `1 + exp (-|r|) > 1`, and its logarithm is a positive real; the floor is a
  positive real. A sum of positive reals and a real that is not negative is a positive real.
-/
import proofs.«101467_j57397942944248_2_alg».proof.Proof.Spec

noncomputable section

namespace Cert.Rbf

open Idealize.ShloMosaic

/-- The embedding of the reals in the extended reals keeps maxima. -/
theorem coe_max (a b : ℝ) : ((max a b : ℝ) : EReal) = max (a : EReal) (b : EReal) :=
  EReal.coe_strictMono.monotone.map_max

/-- No extended real differs from itself: the test fails and the selection takes its last argument. -/
theorem select_une_self {α : Type} (x : EReal) (a b : α) :
    Scalar.select (Ideal.cmp .une x x) a b = b := by
  simp [Scalar.select, Ideal.cmp]

/-- The floor word is a positive real: `(2^23 + 2606508) · 2^(110 - 127 - 23)`. -/
theorem wFloor_pos : ∃ c : ℝ, 0 < c ∧ wFloor = (c : EReal) := by
  refine ⟨10995116 * (2 : ℝ) ^ (-40 : ℤ), by positivity, ?_⟩
  simp [wFloor, Ideal.ofBits, Ideal.ieee, -EReal.coe_mul]

/-- `log (1 + exp (-|r|))` is a positive real, because `1 + exp (-|r|) > 1`. -/
theorem log1p_exp_pos (r : ℝ) : ∃ t : ℝ, 0 < t ∧
    Ideal.log1p (Ideal.exp (-(max ((r : EReal) - w0) (-((r : EReal) - w0))))) = (t : EReal) := by
  have he : 0 < Real.exp (-(max (r - 0) (-(r - 0)))) := Real.exp_pos _
  refine ⟨Real.log (1 + Real.exp (-(max (r - 0) (-(r - 0))))), Real.log_pos (by linarith), ?_⟩
  rw [w0_eq, ← EReal.coe_sub, ← EReal.coe_neg, ← coe_max, ← EReal.coe_neg, Ideal.exp_coe, Ideal.log1p,
    ← EReal.coe_one, ← EReal.coe_add, Ideal.log_coe, if_neg (by linarith)]

/-- The lengthscale at a real parameter is a positive real. -/
theorem lsAt_pos (r : ℝ) : ∃ s : ℝ, 0 < s ∧ lsAt (r : EReal) = (s : EReal) := by
  obtain ⟨c, hc, hcw⟩ := wFloor_pos
  obtain ⟨t, ht, htw⟩ := log1p_exp_pos r
  refine ⟨c + (max r 0 + t), by have := le_max_right r 0; linarith, ?_⟩
  rw [lsAt, select_une_self, htw, hcw, w0_eq, ← coe_max, ← EReal.coe_add, ← EReal.coe_add]

end Cert.Rbf

end
-- ==== Proof.Bridge.lean ====
/-
  The kernel computes `G`.

  The kernel's result is `GK` of the arrays its windows read: scaled points, their squared norms, and the values.
  At grid point `i` and off-grid point `j` it weighs with `|q i|² + |k j|² - 2 ⟨q i, k j⟩`, where `q` and `k` are
  the points scaled by the reciprocal lengthscales; the reference weighs with `∑ d, ((xon i d - xoff j d) / l d)²`.
  When every coordinate is a real number and every lengthscale a real number that is not zero, the two are equal:
  the square of a difference, expanded (`sq_expand`). The precondition makes every entry of every argument a real
  number, and the lengthscale of a real parameter is a positive real (`lsAt_pos`).
-/
import proofs.«101467_j57397942944248_2_alg».proof.Proof.KernelArrays
import proofs.«101467_j57397942944248_2_alg».proof.Proof.KernelValue
import proofs.«101467_j57397942944248_2_alg».proof.Proof.Lengthscale
import proofs.«101467_j57397942944248_2_alg».proof.Proof.RefValue

noncomputable section

namespace Cert.Rbf.Ker

open Cert.KernelIdeal Cert.KernelIdeal.Gen Cert.KernelIdeal.Value
open Idealize.ShloMosaic Idealize.ShloMosaic.TcCoe Idealize.SL.Sem Idealize.ShloMosaic.ValueIdx Cert.Rbf

/-- The expanded squared distance of the scaled points is the squared scaled distance of the points, where every
    coordinate and the parameter are real. -/
theorem dist_eq (xon xoff : FVec Ideal S8x4096x2 .f32) (p : FVec Ideal S2 .f32)
    (hxon : ∀ i, ∃ r : ℝ, xon i = (r : EReal)) (hxoff : ∀ i, ∃ r : ℝ, xoff i = (r : EReal))
    (hp : ∀ i, ∃ r : ℝ, p i = (r : EReal)) (b : Fin 8) (i j : Fin 4096) :
    (normCol xon p (ix3 b i (0 : Fin 1)) + normRow xoff p (ix3 b (0 : Fin 1) j))
        - w2 * ∑ d : Fin 2, scaled xon p (ix3 b i d) * scaled xoff p (ix3 b j d)
      = sqDist xon xoff (Ref.lsOf p) b i j := by
  rw [normCol_apply, normRow_apply, normOf_apply, normOf_apply]
  simp only [scaled_apply]
  unfold sqDist Ref.lsOf
  choose a ha using fun d : Fin 2 => hxon (ix3 b i d)
  choose k hk using fun d : Fin 2 => hxoff (ix3 b j d)
  choose pr hpr using fun d : Fin 2 => hp (ix1 d)
  choose l hl0 hl using fun d : Fin 2 => lsAt_pos (pr d)
  simp only [ha, hk, hpr, hl]
  exact sq_expand a k l (fun d => (hl0 d).ne')

/-- `GK` of the scaled points and their norms is `G` of the points. -/
theorem GK_eq_G (xoff yoff xon yon : FVec Ideal S8x4096x2 .f32) (p : FVec Ideal S2 .f32)
    (hxon : ∀ i, ∃ r : ℝ, xon i = (r : EReal)) (hxoff : ∀ i, ∃ r : ℝ, xoff i = (r : EReal))
    (hp : ∀ i, ∃ r : ℝ, p i = (r : EReal)) :
    GK (scaled xon p) (normCol xon p) (scaled xoff p) (normRow xoff p) yoff yon = G xoff yoff xon yon (Ref.lsOf p) := by
  funext o
  obtain ⟨b, i, e, rfl⟩ : ∃ (b : Fin 8) (i : Fin 4096) (e : Fin 4), o = ix3 b i e := ⟨o 0, o 1, o 2, eq_ix3 o⟩
  show GKat _ _ _ _ _ _ b i e = Gat _ _ _ _ _ b i e
  unfold GKat Gat
  by_cases h : e.val < 2
  · rw [dif_pos h, dif_pos h]
  · rw [dif_neg h, dif_neg h]
    unfold gridded
    refine Finset.sum_congr rfl fun j _ => ?_
    rw [dist_eq xon xoff p hxon hxoff hp b i j]

variable (m : (ℓ : Loc nD τ sig) → Buf (Elt Ideal) ℓ) (ρ : Dev nD → PrngReg)

/-- The arrays the region finds are the stages of the arguments. -/
theorem GKV_eq (c : Dev nD) : GKV m c
    = GK (scaled (m ((c : Thread nD τ).loc main_arg2)) (m ((c : Thread nD τ).loc main_arg4)))
        (normCol (m ((c : Thread nD τ).loc main_arg2)) (m ((c : Thread nD τ).loc main_arg4)))
        (scaled (m ((c : Thread nD τ).loc main_arg0)) (m ((c : Thread nD τ).loc main_arg4)))
        (normRow (m ((c : Thread nD τ).loc main_arg0)) (m ((c : Thread nD τ).loc main_arg4)))
        (m ((c : Thread nD τ).loc main_arg1)) (m ((c : Thread nD τ).loc main_arg3)) := by
  show GK _ _ _ _ _ _ = _
  rw [V_scaledOn m c, V_normOn m c, V_scaledOff m c, V_normOff m c, V_main_arg1 m c, V_main_arg3 m c]

/-- The kernel's run, read: where every entry of the points and the parameter is real, the result array ends
    holding `G` of the arguments, and the arguments end unchanged. -/
theorem run (hreal : ∀ c : Dev nD,
      (∀ i, ∃ r : ℝ, (m ((c : Thread nD τ).loc main_arg0) : S8x4096x2.Idx → EReal) i = (r : EReal))
      ∧ (∀ i, ∃ r : ℝ, (m ((c : Thread nD τ).loc main_arg2) : S8x4096x2.Idx → EReal) i = (r : EReal))
      ∧ (∀ i, ∃ r : ℝ, (m ((c : Thread nD τ).loc main_arg4) : S2.Idx → EReal) i = (r : EReal))) :
    θ_run defs (onTc (τ := τ) (main (F := Ideal))) ⟨m, fun _ => 0, ρ⟩ fun r => ∀ c : Dev nD,
      r.2.mem ((c : Thread nD τ).loc main_v17)
        = G (m ((c : Thread nD τ).loc main_arg0)) (m ((c : Thread nD τ).loc main_arg1)) (m ((c : Thread nD τ).loc main_arg2))
            (m ((c : Thread nD τ).loc main_arg3)) (Ref.lsOf (m ((c : Thread nD τ).loc main_arg4)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans ((final m c).trans ((GKV_eq m c).trans
      (GK_eq_G _ _ _ _ _ (hreal c).2.1 (hreal c).1 (hreal c).2.2))), (h c).2⟩)
    (Value.run_blocks m ρ)

end Cert.Rbf.Ker

end
-- ==== Proof.lean ====
/-
  The certificate of an RBF set-convolution kernel against its jnp reference, over the extended reals.

  For 8 batches of 4096 grid points and 4096 off-grid points in the plane, both programs return the grid points
  unchanged and, per grid point, its own two values followed by the two weighted sums
  `∑ j, exp (-½ ∑ d, ((xon i d - xoff j d) / l d)²) · yoff j`, the lengthscale `l d` a small floor plus the softplus of a
  parameter. The reference computes exactly that. The kernel scales every point by `1 / l d` on the host, takes the
  squared norms there, and in its body forms `|q|² + |k|² - 2 ⟨q, k⟩` with one contraction over the coordinates,
  the weights, and the weighted sums with a second contraction over the off-grid points, one block of 512 grid
  points per grid step.

  The two agree because the square of a difference expands, which on the extended reals needs every coordinate
  finite and the lengthscale a real number that is not zero: the precondition gives the first, and the softplus of
  a real parameter is positive, which gives the second. Nothing else separates the programs at the ideal values:
  a contraction into a zero accumulator is the host's contraction, a sum is a sum in any order, and the float
  words (0, 1, 2, -1/2, the floor) are the same words on both sides.

  `preserves` is `True`: the ideal pass rewrote nothing. The three frames are the generated ones, the reference's
  its generated run with the result dropped.
-/
import proofs.«101467_j57397942944248_2_alg».proof.Defs
import proofs.«101467_j57397942944248_2_alg».proof.Proof.Gen.Kernel
import proofs.«101467_j57397942944248_2_alg».proof.Proof.Gen.Kernel.Skeleton
import proofs.«101467_j57397942944248_2_alg».proof.Proof.Gen.Kernel.Launch
import proofs.«101467_j57397942944248_2_alg».proof.Proof.Gen.Kernel.Points
import proofs.«101467_j57397942944248_2_alg».proof.Proof.Gen.Kernel.Frame
import proofs.«101467_j57397942944248_2_alg».proof.Proof.Gen.KernelIdeal
import proofs.«101467_j57397942944248_2_alg».proof.Proof.Gen.KernelIdeal.Skeleton
import proofs.«101467_j57397942944248_2_alg».proof.Proof.Gen.KernelIdeal.Launch
import proofs.«101467_j57397942944248_2_alg».proof.Proof.Gen.KernelIdeal.Points
import proofs.«101467_j57397942944248_2_alg».proof.Proof.Gen.KernelIdeal.Frame
import proofs.«101467_j57397942944248_2_alg».proof.Proof.Gen.ReferenceIdeal
import proofs.«101467_j57397942944248_2_alg».proof.Proof.Gen.Pre_finite_inputs
import proofs.«101467_j57397942944248_2_alg».proof.Proof.Gen.KernelIdeal.Value
import proofs.«101467_j57397942944248_2_alg».proof.Proof.Gen.ReferenceIdeal.Run
import proofs.«101467_j57397942944248_2_alg».proof.Proof.Gen.ReferenceIdeal.Read
import proofs.«101467_j57397942944248_2_alg».proof.Proof.Finite
import proofs.«101467_j57397942944248_2_alg».proof.Proof.RefValue
import proofs.«101467_j57397942944248_2_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- At the ideal values, from memories that agree on the five arguments, both programs end with the grid points
    unchanged and the result array at `G` of the arguments: the kernel by its blocks and the expanded square
    (`Ker.run`, under the precondition's finiteness), the reference stage by stage (`Ref.result_eq`). -/
theorem algebraic : Cert.algebraic_KernelIdeal_ReferenceIdeal := by
  intro m ρ m' ρ' hpre hagree
  have hreal := fun c : Dev Cert.KernelIdeal.nD => Cert.Rbf.real_of_pre _ _ _ _ _ (hpre c)
  refine ⟨fun c => m ((c.tc : Thread Cert.KernelIdeal.nD Cert.KernelIdeal.τ).loc Cert.KernelIdeal.main_arg2),
    fun c => Cert.Rbf.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (Cert.Rbf.Ref.lsOf (m ((c.tc : Thread Cert.KernelIdeal.nD Cert.KernelIdeal.τ).loc Cert.KernelIdeal.main_arg4))), ?_, ?_⟩
  · exact (θ_run Cert.KernelIdeal.defs _ _).mono (fun r h c => ⟨(h c).2.2.2.1, (h c).1, (h c).2⟩)
      (Cert.Rbf.Ker.run m ρ (fun c => ⟨(hreal c).1, (hreal c).2.2.1, (hreal c).2.2.2.2⟩))
  · refine (θ_run Cert.ReferenceIdeal.defs _ _).mono (fun r h c => ?_) (Cert.ReferenceIdeal.Value.run (F := Ideal) m' ρ')
    obtain ⟨a0, a1, a2, a3, a4⟩ := hagree c
    refine ⟨(h c).1.trans a2, (h c).2.1.trans ?_, (h c).2.2⟩
    rw [Cert.ReferenceIdeal.Read.val_main_v17_eq, Cert.Rbf.Ref.result_eq, a0, a1, a2, a3, a4]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
